-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v126)) (v2 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v126) = v1 c
          ∧ r.2.mem ((c.tc : Thread Cert.KernelIdeal.nD Cert.KernelIdeal.τ).loc Cert.KernelIdeal.main_v119) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x256 : Shape := ⟨2, ![128, 256]⟩
abbrev S256x256 : Shape := ⟨2, ![256, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S256x10 .f32) (main_arg10 : FVec F S10 .f32) (main_v33 : IVec S_ 1) : IVec S_ 1 :=
  let main_v34 : FVec F S256x10 .f32 := Host.absf main_arg9
  let main_cst_12 : FVec F S_ .f32 := constant S_ .f32 0x7F800000#32
  let main_v35 : FVec F S256x10 .f32 := broadcastInDim S256x10 ![] bcast_S_S256x10 main_cst_12
  let main_v36 : IVec S256x10 1 := cmpf .olt main_v34 main_v35
  let main_c_13 : IVec S_ 1 := constantI S_ 1 1#1
  let main_v37 : IVec S_ 1 := (fun x v => Host.reduce IntOp.andi x v reducesTo_S256x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S256x256 .f32) (main_arg7 : FVec F S256x256 .f32) (main_arg8 : FVec F S256 .f32) (main_arg9 : FVec F S256x10 .f32) (main_arg10 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : FVec F S800000 .f32) (main_arg3 : IVec S50000 32) (main_arg4 : FVec F S128x256 .f32) (main_arg5 : FVec F S256x256 .f32) (main_arg6 : FVec F S256x256 .f32) (main_arg7 : FVec F S256x256 .f32) (main_arg8 : FVec F S256 .f32) (main_arg9 : FVec F S256x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x256 : Shape := ⟨2, ![128, 256]⟩
abbrev S256x256 : Shape := ⟨2, ![256, 256]⟩
abbrev S256 : Shape := ⟨1, ![256]⟩
abbrev S256x10 : Shape := ⟨2, ![256, 10]⟩
abbrev S10 : Shape := ⟨1, ![10]⟩
abbrev S1x800000 : Shape := ⟨2, ![1, 800000]⟩
abbrev S_ : Shape := ⟨0, ![]⟩
abbrev S800000x1 : Shape := ⟨2, ![800000, 1]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S50000x1 : Shape := ⟨2, ![50000, 1]⟩
abbrev S2000x256 : Shape := ⟨2, ![2000, 256]⟩
abbrev S2000x1 : Shape := ⟨2, ![2000, 1]⟩
abbrev S128 : Shape := ⟨1, ![128]⟩
abbrev S128x1 : Shape := ⟨2, ![128, 1]⟩
abbrev S1x256 : Shape := ⟨2, ![1, 256]⟩
abbrev S1x10 : Shape := ⟨2, ![1, 10]⟩
abbrev S128x10 : Shape := ⟨2, ![128, 10]⟩

abbrev nBuf : Space → Nat
  | .hbm => 182
  | .vmem => 45
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S128x256, .f32⟩
  | 5 => ⟨S256x256, .f32⟩
  | 6 => ⟨S256x256, .f32⟩
  | 7 => ⟨S256x256, .f32⟩
  | 8 => ⟨S256, .f32⟩
  | 9 => ⟨S256x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S50000, .f32⟩
  | 26 => ⟨S50000x256, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x256, .f32⟩
  | 55 => ⟨S800000x1, .f32⟩
  | 56 => ⟨S800000x256, .f32⟩
  | 57 => ⟨S800000x256, .f32⟩
  | 58 => ⟨S_, .f32⟩
  | 59 => ⟨S50000x256, .f32⟩
  | 60 => ⟨S800000x1, .i32⟩
  | 61 => ⟨S50000x256, .f32⟩
  | 62 => ⟨S50000x1, .f32⟩
  | 63 => ⟨S50000x256, .f32⟩
  | 64 => ⟨S50000x256, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000, .f32⟩
  | 83 => ⟨S800000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x256, .f32⟩
  | 93 => ⟨S800000x1, .f32⟩
  | 94 => ⟨S800000x256, .f32⟩
  | 95 => ⟨S800000x256, .f32⟩
  | 96 => ⟨S_, .f32⟩
  | 97 => ⟨S50000x256, .f32⟩
  | 98 => ⟨S800000x1, .i32⟩
  | 99 => ⟨S50000x256, .f32⟩
  | 100 => ⟨S50000x1, .f32⟩
  | 101 => ⟨S50000x256, .f32⟩
  | 102 => ⟨S50000x256, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000, .f32⟩
  | 121 => ⟨S800000, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x256, .f32⟩
  | 3 => ⟨S800000x1, .f32⟩
  | 4 => ⟨S800000x256, .f32⟩
  | 5 => ⟨S800000x256, .f32⟩
  | 6 => ⟨S_, .f32⟩
  | 7 => ⟨S50000x256, .f32⟩
  | 8 => ⟨S800000x1, .i32⟩
  | 9 => ⟨S50000x256, .f32⟩
  | 10 => ⟨S50000x1, .f32⟩
  | 11 => ⟨S50000x256, .f32⟩
  | 12 => ⟨S_, .f32⟩
  | 13 => ⟨S50000, .f32⟩
  | 14 => ⟨S_, .f32⟩
  | 15 => ⟨S128, .f32⟩
  | 16 => ⟨S50000x1, .i32⟩
  | 17 => ⟨S128, .f32⟩
  | 18 => ⟨S_, .f32⟩
  | 19 => ⟨S128x256, .f32⟩
  | 20 => ⟨S50000x1, .i32⟩
  | 21 => ⟨S128x256, .f32⟩
  | 22 => ⟨S_, .f32⟩
  | 23 => ⟨S128, .f32⟩
  | 24 => ⟨S128, .f32⟩
  | 25 => ⟨S128x1, .f32⟩
  | 26 => ⟨S128x256, .f32⟩
  | 27 => ⟨S128x256, .f32⟩
  | 28 => ⟨S1x256, .f32⟩
  | 29 => ⟨S1x10, .f32⟩
  | 30 => ⟨S128x10, .f32⟩
  | 31 => ⟨S_, .f32⟩
  | 32 => ⟨S128, .f32⟩
  | 33 => ⟨S_, .f32⟩
  | 34 => ⟨S128, .f32⟩
  | 35 => ⟨S128, .f32⟩
  | 36 => ⟨S128x1, .f32⟩
  | 37 => ⟨S128x10, .f32⟩
  | 38 => ⟨S128x10, .f32⟩
  | 39 => ⟨S128x10, .f32⟩
  | 40 => ⟨S_, .f32⟩
  | 41 => ⟨S128, .f32⟩
  | 42 => ⟨S128x1, .f32⟩
  | 43 => ⟨S128x1, .f32⟩
  | 44 => ⟨S128x10, .f32⟩
  | 45 => ⟨S128x10, .f32⟩
  | 46 => ⟨S128x10, .f32⟩
  | 47 => ⟨S128x10, .f32⟩
  | 48 => ⟨S_, .f32⟩
  | 49 => ⟨S128x10, .f32⟩
  | 50 => ⟨S128x10, .f32⟩
  | 51 => ⟨S_, .f32⟩
  | 52 => ⟨S128x10, .f32⟩
  | 53 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S2000x256, .f32⟩
  | .local _ .vmem, ⟨12, _⟩ => ⟨S2000x256, .f32⟩
  | .local _ .vmem, ⟨13, _⟩ => ⟨S5000x256, .f32⟩
  | .local _ .vmem, ⟨14, _⟩ => ⟨S5000x256, .f32⟩
  | .local _ .vmem, ⟨15, _⟩ => ⟨S256x256, .f32⟩
  | .local _ .vmem, ⟨16, _⟩ => ⟨S5000x256, .f32⟩
  | .local _ .vmem, ⟨17, _⟩ => ⟨S5000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x1, .f32⟩
  | .local _ .vmem, ⟨23, _⟩ => ⟨S2000x1, .f32⟩
  | .local _ .vmem, ⟨24, _⟩ => ⟨S2000x256, .f32⟩
  | .local _ .vmem, ⟨25, _⟩ => ⟨S2000x256, .f32⟩
  | .local _ .vmem, ⟨26, _⟩ => ⟨S5000x256, .f32⟩
  | .local _ .vmem, ⟨27, _⟩ => ⟨S5000x256, .f32⟩
  | .local _ .vmem, ⟨28, _⟩ => ⟨S256x256, .f32⟩
  | .local _ .vmem, ⟨29, _⟩ => ⟨S5000x256, .f32⟩
  | .local _ .vmem, ⟨30, _⟩ => ⟨S5000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x1, .f32⟩
  | .local _ .vmem, ⟨36, _⟩ => ⟨S2000x1, .f32⟩
  | .local _ .vmem, ⟨37, _⟩ => ⟨S2000x256, .f32⟩
  | .local _ .vmem, ⟨38, _⟩ => ⟨S2000x256, .f32⟩
  | .local _ .vmem, ⟨39, _⟩ => ⟨S128x256, .f32⟩
  | .local _ .vmem, ⟨40, _⟩ => ⟨S256x256, .f32⟩
  | .local _ .vmem, ⟨41, _⟩ => ⟨S1x256, .f32⟩
  | .local _ .vmem, ⟨42, _⟩ => ⟨S256x10, .f32⟩
  | .local _ .vmem, ⟨43, _⟩ => ⟨S1x10, .f32⟩
  | .local _ .vmem, ⟨44, _⟩ => ⟨S128x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_15 : Ref sig .tc := ⟨.hbm, 103, rfl⟩
abbrev main_v75 : Ref sig .tc := ⟨.hbm, 104, rfl⟩
abbrev main_v76 : Ref sig .tc := ⟨.hbm, 105, rfl⟩
abbrev main_c_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_17 : Ref sig .tc := ⟨.hbm, 112, rfl⟩
abbrev main_v82 : Ref sig .tc := ⟨.hbm, 113, rfl⟩
abbrev main_v83 : Ref sig .tc := ⟨.hbm, 114, rfl⟩
abbrev main_c_18 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_19 : Ref sig .tc := ⟨.hbm, 122, rfl⟩
abbrev main_v90 : Ref sig .tc := ⟨.hbm, 123, rfl⟩
abbrev main_v91 : Ref sig .tc := ⟨.hbm, 124, rfl⟩
abbrev main_c_20 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_21 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_22 : Ref sig .tc := ⟨.hbm, 140, rfl⟩
abbrev main_v105 : Ref sig .tc := ⟨.hbm, 141, rfl⟩
abbrev main_cst_23 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_24 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_25 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_call0_cst : Ref sig .tc := ⟨.hbm, 159, rfl⟩
abbrev main_call0_v0 : Ref sig .tc := ⟨.hbm, 160, rfl⟩
abbrev main_call0_cst_0 : Ref sig .tc := ⟨.hbm, 161, rfl⟩
abbrev main_call0_v1 : Ref sig .tc := ⟨.hbm, 162, rfl⟩
abbrev main_call0_v2 : Ref sig .tc := ⟨.hbm, 163, rfl⟩
abbrev main_call0_v3 : Ref sig .tc := ⟨.hbm, 164, rfl⟩
abbrev main_call0_v4 : Ref sig .tc := ⟨.hbm, 165, rfl⟩
abbrev main_call0_v5 : Ref sig .tc := ⟨.hbm, 166, rfl⟩
abbrev main_call0_v6 : Ref sig .tc := ⟨.hbm, 167, rfl⟩
abbrev main_call0_cst_1 : Ref sig .tc := ⟨.hbm, 168, rfl⟩
abbrev main_call0_v7 : Ref sig .tc := ⟨.hbm, 169, rfl⟩
abbrev main_call0_v8 : Ref sig .tc := ⟨.hbm, 170, rfl⟩
abbrev main_call0_v9 : Ref sig .tc := ⟨.hbm, 171, rfl⟩
abbrev main_call0_v10 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_26 : Ref sig .tc := ⟨.hbm, 176, rfl⟩
abbrev main_v123 : Ref sig .tc := ⟨.hbm, 177, rfl⟩
abbrev main_v124 : Ref sig .tc := ⟨.hbm, 178, rfl⟩
abbrev main_cst_27 : Ref sig .tc := ⟨.hbm, 179, rfl⟩
abbrev main_v125 : Ref sig .tc := ⟨.hbm, 180, rfl⟩
abbrev main_v126 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc6_stg0_0 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg4_0 : Ref sig .tc := ⟨.vmem, 43, rfl⟩
abbrev cc6_stg5_0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38
abbrev cc6_sem0_0 : DmaSem sig := 39
abbrev cc6_sem1_0 : DmaSem sig := 40
abbrev cc6_sem2_0 : DmaSem sig := 41
abbrev cc6_sem3_0 : DmaSem sig := 42
abbrev cc6_sem4_0 : DmaSem sig := 43
abbrev cc6_sem5_0 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S128x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000_S50000x1 : S50000.ShapeCasts S50000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  bcast_S_S128 : S_.BroadcastsInDim S128 (![] : Fin 0 → Fin S128.rank)
  bcast_S50000_S50000x1_0 : S50000.BroadcastsInDim S50000x1 (![0] : Fin 1 → Fin S50000x1.rank)
  bcast_S_S128x256 : S_.BroadcastsInDim S128x256 (![] : Fin 0 → Fin S128x256.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  shapeCasts_S256_S1x256 : S256.ShapeCasts S1x256
  shapeCasts_S10_S1x10 : S10.ShapeCasts S1x10
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  reducesTo_S128x10_S128_d1 : S128x10.ReducesTo [1] S128
  h_S_ : 0 < S_.numel
  bcast_S128x1_S128x10_0_1 : S128x1.BroadcastsInDim S128x10 (![0, 1] : Fin 2 → Fin S128x10.rank)
  bcast_S_S128x10 : S_.BroadcastsInDim S128x10 (![] : Fin 0 → Fin S128x10.rank)
  scatter_S50000_S800000x1_S800000_n_0_0_1_wf : ScatterDims.WF S50000 S800000x1 S800000 [] [0] [0] 1
  dot_S5000x128_S128x256_S5000x256_1_0_0_1_n_n_wf : DotDims.WF S5000x128 S128x256 S5000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  scatter_S128_S50000x1_S50000_n_0_0_1_wf : ScatterDims.WF S128 S50000x1 S50000 [] [0] [0] 1
  scatter_S128x256_S50000x1_S50000x256_1_0_0_1_wf : ScatterDims.WF S128x256 S50000x1 S50000x256 [1] [0] [0] 1
  dot_S128x256_S256x256_S128x256_1_0_0_1_n_n_wf : DotDims.WF S128x256 S256x256 S128x256 [1] [0] [0] [1] [] []
  dot_S128x256_S256x10_S128x10_1_0_0_1_n_n_wf : DotDims.WF S128x256 S256x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S50000x256.size a
  hwx4_2 : ∀ i : grid4.Coords, EltTy.bits .f32 = 32 ∨ (Rect.block (s := S50000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S50000x256.size a
  hwx5_3 : ∀ i : grid5.Coords, EltTy.bits .f32 = 32 ∨ (Rect.block (s := S50000x256) S2000x256.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S128x256.size a ≤ S128x256.size a
  hwx6_0 : ∀ i : grid6.Coords, EltTy.bits .f32 = 32 ∨ (Rect.block (s := S128x256) S128x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x10.size a ≤ S256x10.size a
  hwx6_3 : ∀ i : grid6.Coords, EltTy.bits .f32 = 32 ∨ (Rect.block (s := S256x10) S256x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x10.size a ≤ S1x10.size a
  hwx6_4 : ∀ i : grid6.Coords, EltTy.bits .f32 = 32 ∨ (Rect.block (s := S1x10) S1x10.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x10.size a ≤ S128x10.size a
  hwx6_5 : ∀ i : grid6.Coords, EltTy.bits .f32 = 32 ∨ (Rect.block (s := S128x10) S128x10.size (cc6_transform_5 i) (hinb6_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v42) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v73) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v102) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v103) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v104) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v116) S128x256.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v117) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg9) S256x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v118) S1x10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v119) S128x10.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x256 : Shape := ⟨2, ![128, 256]⟩
abbrev S256x256 : Shape := ⟨2, ![256, 256]⟩
abbrev S256 : Shape := ⟨1, ![256]⟩
abbrev S256x10 : Shape := ⟨2, ![256, 10]⟩
abbrev S10 : Shape := ⟨1, ![10]⟩
abbrev S1x800000 : Shape := ⟨2, ![1, 800000]⟩
abbrev S_ : Shape := ⟨0, ![]⟩
abbrev S800000x1 : Shape := ⟨2, ![800000, 1]⟩
abbrev S50000x256 : Shape := ⟨2, ![50000, 256]⟩
abbrev S800000x256 : Shape := ⟨2, ![800000, 256]⟩
abbrev S50000x1 : Shape := ⟨2, ![50000, 1]⟩
abbrev S128 : Shape := ⟨1, ![128]⟩
abbrev S128x1 : Shape := ⟨2, ![128, 1]⟩
abbrev S1x256 : Shape := ⟨2, ![1, 256]⟩
abbrev S128x10 : Shape := ⟨2, ![128, 10]⟩
abbrev S1x10 : Shape := ⟨2, ![1, 10]⟩

abbrev nBuf : Space → Nat
  | .hbm => 207
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S128x256, .f32⟩
  | 5 => ⟨S256x256, .f32⟩
  | 6 => ⟨S256x256, .f32⟩
  | 7 => ⟨S256x256, .f32⟩
  | 8 => ⟨S256, .f32⟩
  | 9 => ⟨S256x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S50000x256, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x256, .f32⟩
  | 54 => ⟨S800000x1, .f32⟩
  | 55 => ⟨S800000x256, .f32⟩
  | 56 => ⟨S800000x256, .f32⟩
  | 57 => ⟨S_, .f32⟩
  | 58 => ⟨S50000x256, .f32⟩
  | 59 => ⟨S800000x1, .i32⟩
  | 60 => ⟨S50000x256, .f32⟩
  | 61 => ⟨S50000, .f32⟩
  | 62 => ⟨S50000x1, .f32⟩
  | 63 => ⟨S50000x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000x256, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x256, .f32⟩
  | 98 => ⟨S800000x1, .f32⟩
  | 99 => ⟨S800000x256, .f32⟩
  | 100 => ⟨S800000x256, .f32⟩
  | 101 => ⟨S_, .f32⟩
  | 102 => ⟨S50000x256, .f32⟩
  | 103 => ⟨S800000x1, .i32⟩
  | 104 => ⟨S50000x256, .f32⟩
  | 105 => ⟨S50000, .f32⟩
  | 106 => ⟨S50000x1, .f32⟩
  | 107 => ⟨S50000x256, .f32⟩
  | 108 => ⟨S50000x256, .f32⟩
  | 109 => ⟨S50000x256, .f32⟩
  | 110 => ⟨S_, .f32⟩
  | 111 => ⟨S50000x256, .f32⟩
  | 112 => ⟨S50000x256, .f32⟩
  | 113 => ⟨S50000x256, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_1 (i : Nat) : BufTy := match i % 128 with
  | 0 => ⟨S800000, .i32⟩
  | 1 => ⟨S800000, .i32⟩
  | 2 => ⟨S800000x1, .i32⟩
  | 3 => ⟨S800000, .f32⟩
  | 4 => ⟨S800000, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x256, .f32⟩
  | 14 => ⟨S800000x1, .f32⟩
  | 15 => ⟨S800000x256, .f32⟩
  | 16 => ⟨S800000x256, .f32⟩
  | 17 => ⟨S_, .f32⟩
  | 18 => ⟨S50000x256, .f32⟩
  | 19 => ⟨S800000x1, .i32⟩
  | 20 => ⟨S50000x256, .f32⟩
  | 21 => ⟨S50000, .f32⟩
  | 22 => ⟨S50000x1, .f32⟩
  | 23 => ⟨S50000x256, .f32⟩
  | 24 => ⟨S50000x256, .f32⟩
  | 25 => ⟨S50000x256, .f32⟩
  | 26 => ⟨S_, .f32⟩
  | 27 => ⟨S50000x256, .f32⟩
  | 28 => ⟨S50000x256, .f32⟩
  | 29 => ⟨S_, .f32⟩
  | 30 => ⟨S50000, .f32⟩
  | 31 => ⟨S_, .f32⟩
  | 32 => ⟨S128, .f32⟩
  | 33 => ⟨S50000x1, .i32⟩
  | 34 => ⟨S128, .f32⟩
  | 35 => ⟨S_, .f32⟩
  | 36 => ⟨S128x256, .f32⟩
  | 37 => ⟨S50000x1, .i32⟩
  | 38 => ⟨S128x256, .f32⟩
  | 39 => ⟨S_, .f32⟩
  | 40 => ⟨S128, .f32⟩
  | 41 => ⟨S128, .f32⟩
  | 42 => ⟨S128x1, .f32⟩
  | 43 => ⟨S128x256, .f32⟩
  | 44 => ⟨S128x256, .f32⟩
  | 45 => ⟨S128x256, .f32⟩
  | 46 => ⟨S1x256, .f32⟩
  | 47 => ⟨S128x256, .f32⟩
  | 48 => ⟨S128x256, .f32⟩
  | 49 => ⟨S_, .f32⟩
  | 50 => ⟨S128x256, .f32⟩
  | 51 => ⟨S128x256, .f32⟩
  | 52 => ⟨S128x10, .f32⟩
  | 53 => ⟨S1x10, .f32⟩
  | 54 => ⟨S128x10, .f32⟩
  | 55 => ⟨S128x10, .f32⟩
  | 56 => ⟨S_, .f32⟩
  | 57 => ⟨S128, .f32⟩
  | 58 => ⟨S_, .f32⟩
  | 59 => ⟨S128, .f32⟩
  | 60 => ⟨S128, .f32⟩
  | 61 => ⟨S128x1, .f32⟩
  | 62 => ⟨S128x10, .f32⟩
  | 63 => ⟨S128x10, .f32⟩
  | 64 => ⟨S128x10, .f32⟩
  | 65 => ⟨S_, .f32⟩
  | 66 => ⟨S128, .f32⟩
  | 67 => ⟨S128x1, .f32⟩
  | 68 => ⟨S128x1, .f32⟩
  | 69 => ⟨S128x10, .f32⟩
  | 70 => ⟨S128x10, .f32⟩
  | 71 => ⟨S128x10, .f32⟩
  | 72 => ⟨S128x10, .f32⟩
  | 73 => ⟨S_, .f32⟩
  | 74 => ⟨S128x10, .f32⟩
  | 75 => ⟨S128x10, .f32⟩
  | 76 => ⟨S_, .f32⟩
  | 77 => ⟨S128x10, .f32⟩
  | 78 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call0_cst : Ref sig .tc := ⟨.hbm, 66, rfl⟩
abbrev main_call0_v0 : Ref sig .tc := ⟨.hbm, 67, rfl⟩
abbrev main_v45 : Ref sig .tc := ⟨.hbm, 68, rfl⟩
abbrev main_v46 : Ref sig .tc := ⟨.hbm, 69, rfl⟩
abbrev main_c_8 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call1_cst : Ref sig .tc := ⟨.hbm, 110, rfl⟩
abbrev main_call1_v0 : Ref sig .tc := ⟨.hbm, 111, rfl⟩
abbrev main_v80 : Ref sig .tc := ⟨.hbm, 112, rfl⟩
abbrev main_v81 : Ref sig .tc := ⟨.hbm, 113, rfl⟩
abbrev main_c_15 : Ref sig .tc := ⟨.hbm, 114, rfl⟩
abbrev main_v82 : Ref sig .tc := ⟨.hbm, 115, rfl⟩
abbrev main_v83 : Ref sig .tc := ⟨.hbm, 116, rfl⟩
abbrev main_c_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_17 : Ref sig .tc := ⟨.hbm, 123, rfl⟩
abbrev main_v89 : Ref sig .tc := ⟨.hbm, 124, rfl⟩
abbrev main_v90 : Ref sig .tc := ⟨.hbm, 125, rfl⟩
abbrev main_c_18 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_19 : Ref sig .tc := ⟨.hbm, 133, rfl⟩
abbrev main_v97 : Ref sig .tc := ⟨.hbm, 134, rfl⟩
abbrev main_v98 : Ref sig .tc := ⟨.hbm, 135, rfl⟩
abbrev main_c_20 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_21 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_call2_cst : Ref sig .tc := ⟨.hbm, 154, rfl⟩
abbrev main_call2_v0 : Ref sig .tc := ⟨.hbm, 155, rfl⟩
abbrev main_v115 : Ref sig .tc := ⟨.hbm, 156, rfl⟩
abbrev main_cst_22 : Ref sig .tc := ⟨.hbm, 157, rfl⟩
abbrev main_v116 : Ref sig .tc := ⟨.hbm, 158, rfl⟩
abbrev main_cst_23 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_24 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_25 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_call3_cst : Ref sig .tc := ⟨.hbm, 177, rfl⟩
abbrev main_call3_v0 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_call4_cst : Ref sig .tc := ⟨.hbm, 184, rfl⟩
abbrev main_call4_v0 : Ref sig .tc := ⟨.hbm, 185, rfl⟩
abbrev main_call4_cst_0 : Ref sig .tc := ⟨.hbm, 186, rfl⟩
abbrev main_call4_v1 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_call4_v5 : Ref sig .tc := ⟨.hbm, 191, rfl⟩
abbrev main_call4_v6 : Ref sig .tc := ⟨.hbm, 192, rfl⟩
abbrev main_call4_cst_1 : Ref sig .tc := ⟨.hbm, 193, rfl⟩
abbrev main_call4_v7 : Ref sig .tc := ⟨.hbm, 194, rfl⟩
abbrev main_call4_v8 : Ref sig .tc := ⟨.hbm, 195, rfl⟩
abbrev main_call4_v9 : Ref sig .tc := ⟨.hbm, 196, rfl⟩
abbrev main_call4_v10 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_cst_26 : Ref sig .tc := ⟨.hbm, 201, rfl⟩
abbrev main_v140 : Ref sig .tc := ⟨.hbm, 202, rfl⟩
abbrev main_v141 : Ref sig .tc := ⟨.hbm, 203, rfl⟩
abbrev main_cst_27 : Ref sig .tc := ⟨.hbm, 204, rfl⟩
abbrev main_v142 : Ref sig .tc := ⟨.hbm, 205, rfl⟩
abbrev main_v143 : Ref sig .tc := ⟨.hbm, 206, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S128 : S_.BroadcastsInDim S128 (![] : Fin 0 → Fin S128.rank)
  bcast_S_S128x256 : S_.BroadcastsInDim S128x256 (![] : Fin 0 → Fin S128x256.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  bcast_S_S128x10 : S_.BroadcastsInDim S128x10 (![] : Fin 0 → Fin S128x10.rank)
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S128_S50000x1_S50000_n_0_0_1_wf : ScatterDims.WF S128 S50000x1 S50000 [] [0] [0] 1
  scatter_S128x256_S50000x1_S50000x256_1_0_0_1_wf : ScatterDims.WF S128x256 S50000x1 S50000x256 [1] [0] [0] 1
  dot_S128x256_S256x256_S128x256_1_0_0_1_n_n_wf : DotDims.WF S128x256 S256x256 S128x256 [1] [0] [0] [1] [] []
  dot_S128x256_S256x10_S128x10_1_0_0_1_n_n_wf : DotDims.WF S128x256 S256x10 S128x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x10_S128x10_1_0_0_1_n_n : DotDims S128x256 S256x10 S128x10 where
  lhsContracting := [1]
  rhsContracting := [0]
  lhsNonContracting := [0]
  rhsNonContracting := [1]
  lhsBatch := []
  rhsBatch := []
  wf := dot_S128x256_S256x10_S128x10_1_0_0_1_n_n_wf

class Facts : Prop extends Facts₀ where

variable [Facts]
-- ==== Proof.RunValue.lean ====
/-
  The idealized kernel's run, with its final memory named.  @main is fourteen segments: stretches of host operations
  and seven kernel regions.  Folding the segments from the launch memory gives, for every buffer the TensorCore keeps
  between segments, its contents at the return (the last stage of the fold); every weakly fair execution terminates,
  nothing faulting, in a state whose buffers hold exactly those contents.  The three results and the eleven arguments
  are then read off that one statement.
-/
import proofs.«121664_j30580167148117_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and each buffer that outlives a segment ends at
    the last stage of the fold of the segments from the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The run with the three results named by the fold's last stage, and the arguments as launched. -/
theorem run : θ_run defs (onTc (τ := τ) (main (F := F))) ⟨m, fun _ => 0, ρ⟩ (fun r => ∀ c : Dev nD,
      r.2.mem ((c.tc : Thread nD τ).loc main_v120) = W14 m ρ c (Proc.devRef .tc main_v120)
      ∧ r.2.mem ((c.tc : Thread nD τ).loc main_v126) = W14 m ρ c (Proc.devRef .tc main_v126)
      ∧ r.2.mem ((c.tc : Thread nD τ).loc main_v119) = W14 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
    ⟨h c _ (mem_uc main_v120 (by decide)),
     h c _ (mem_uc main_v126 (by decide)),
     h c _ (mem_uc main_v119 (by decide)),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c)⟩)
    (run_all m ρ)

end Cert.KernelIdeal.RunValue

end
-- ==== Proof.Carry.lean ====
/-
  Which buffers survive which segment.  A stretch of host operations rewrites only its own result buffers, and a kernel
  region rewrites only the arrays of its windows; every other buffer holds after the segment what it held before.  The
  edge-index vectors, the inverse square root of the degrees and its square, and the arguments still to be read are
  written once (or never) and then only read, so they can be followed unchanged from the first stretch to the last
  region that reads them.
-/
import proofs.«121664_j30580167148117_1_alg».proof.Proof.Gen.KernelIdeal.Frame

set_option maxRecDepth 16384

noncomputable section

namespace Cert.KernelIdeal.Carry

open Idealize.ShloMosaic Idealize.ShloMosaic.TcCoe Idealize.SL.Sem Idealize.ShloMosaic.StableHlo
open Cert.KernelIdeal Cert.KernelIdeal.Gen

variable {F : FTy → Type} [FloatOps F]

/-- The buffers the stretch `hostOps0` writes. -/
abbrev wr0 : List (Ref sig .tc) := [main_v0, main_v1, main_v2, main_v3, main_cst, main_v4, main_cst_0, main_v5, main_v6, main_v7, main_cst_1, main_v8, main_v9, main_v10, main_v11]

theorem hostOps0_writes : (hostOps0 : List (HloOp τ sig (Elt F))).Forall fun op => op.writes ⊆ (wr0.map (Proc.devRef (τ := τ) .tc)).toFinset := by
  simp only [hostOps0, List.Forall, nullary_writes, unary_writes, binary_writes, ternary_writes, reshape_writes,
    Finset.singleton_subset_iff, List.mem_toFinset, List.mem_map]
  repeat' apply And.intro
  all_goals exact ⟨_, by decide, rfl⟩

/-- A buffer the stretch does not write keeps its contents across it. -/
theorem pass_hostOps0 (V : Valuation τ sig (Elt F)) {r : Ref sig .tc} (hr : r ∉ wr0) :
    after hostOps0 V (Proc.devRef .tc r) = V (Proc.devRef .tc r) :=
  after_of_writes_sub hostOps0 V hostOps0_writes hr

/-- The buffers the stretch `hostOps1` writes. -/
abbrev wr1 : List (Ref sig .tc) := [main_c, main_v13, main_v14, main_c_2, main_v15, main_v16, main_v17, main_v18, main_v19, main_c_3, main_v20, main_v21, main_c_4, main_v22, main_v23, main_v24, main_v25, main_v26, main_v27, main_c_5, main_v28, main_v29, main_c_6, main_v30, main_v31, main_v32, main_v33, main_v34, main_v35, main_v36, main_v37, main_cst_7, main_v38, main_v39, main_v40, main_v41]

theorem hostOps1_writes : (hostOps1 : List (HloOp τ sig (Elt F))).Forall fun op => op.writes ⊆ (wr1.map (Proc.devRef (τ := τ) .tc)).toFinset := by
  simp only [hostOps1, List.Forall, nullary_writes, unary_writes, binary_writes, ternary_writes, reshape_writes,
    Finset.singleton_subset_iff, List.mem_toFinset, List.mem_map]
  repeat' apply And.intro
  all_goals exact ⟨_, by decide, rfl⟩

/-- A buffer the stretch does not write keeps its contents across it. -/
theorem pass_hostOps1 (V : Valuation τ sig (Elt F)) {r : Ref sig .tc} (hr : r ∉ wr1) :
    after hostOps1 V (Proc.devRef .tc r) = V (Proc.devRef .tc r) :=
  after_of_writes_sub hostOps1 V hostOps1_writes hr

/-- The buffers the stretch `hostOps3` writes. -/
abbrev wr3 : List (Ref sig .tc) := [main_c_8, main_v44, main_v45, main_c_9, main_v46, main_v47, main_v48, main_v49, main_v50, main_c_10, main_v51, main_v52, main_c_11, main_v53, main_v54, main_v55, main_v56, main_v57, main_v58, main_c_12, main_v59, main_v60, main_c_13, main_v61, main_v62, main_v63, main_v64, main_v65, main_v66, main_v67, main_v68, main_cst_14, main_v69, main_v70, main_v71, main_v72]

theorem hostOps3_writes : (hostOps3 : List (HloOp τ sig (Elt F))).Forall fun op => op.writes ⊆ (wr3.map (Proc.devRef (τ := τ) .tc)).toFinset := by
  simp only [hostOps3, List.Forall, nullary_writes, unary_writes, binary_writes, ternary_writes, reshape_writes,
    Finset.singleton_subset_iff, List.mem_toFinset, List.mem_map]
  repeat' apply And.intro
  all_goals exact ⟨_, by decide, rfl⟩

/-- A buffer the stretch does not write keeps its contents across it. -/
theorem pass_hostOps3 (V : Valuation τ sig (Elt F)) {r : Ref sig .tc} (hr : r ∉ wr3) :
    after hostOps3 V (Proc.devRef .tc r) = V (Proc.devRef .tc r) :=
  after_of_writes_sub hostOps3 V hostOps3_writes hr

/-- The buffers the stretch `hostOps5` writes. -/
abbrev wr5 : List (Ref sig .tc) := [main_c_15, main_v75, main_v76, main_c_16, main_v77, main_v78, main_v79, main_v80, main_v81, main_c_17, main_v82, main_v83, main_c_18, main_v84, main_v85, main_v86, main_v87, main_v88, main_v89, main_c_19, main_v90, main_v91, main_c_20, main_v92, main_v93, main_v94, main_v95, main_v96, main_v97, main_v98, main_v99, main_cst_21, main_v100, main_v101, main_v102, main_v103]

theorem hostOps5_writes : (hostOps5 : List (HloOp τ sig (Elt F))).Forall fun op => op.writes ⊆ (wr5.map (Proc.devRef (τ := τ) .tc)).toFinset := by
  simp only [hostOps5, List.Forall, nullary_writes, unary_writes, binary_writes, ternary_writes, reshape_writes,
    Finset.singleton_subset_iff, List.mem_toFinset, List.mem_map]
  repeat' apply And.intro
  all_goals exact ⟨_, by decide, rfl⟩

/-- A buffer the stretch does not write keeps its contents across it. -/
theorem pass_hostOps5 (V : Valuation τ sig (Elt F)) {r : Ref sig .tc} (hr : r ∉ wr5) :
    after hostOps5 V (Proc.devRef .tc r) = V (Proc.devRef .tc r) :=
  after_of_writes_sub hostOps5 V hostOps5_writes hr

/-- The buffers the stretch `hostOps6` writes. -/
abbrev wr6 : List (Ref sig .tc) := [main_cst_22, main_v105, main_cst_23, main_v106, main_v107, main_v108, main_cst_24, main_v109, main_v110, main_v111, main_cst_25, main_v112, main_v113, main_v114, main_v115, main_v116, main_v117, main_v118]

theorem hostOps6_writes : (hostOps6 : List (HloOp τ sig (Elt F))).Forall fun op => op.writes ⊆ (wr6.map (Proc.devRef (τ := τ) .tc)).toFinset := by
  simp only [hostOps6, List.Forall, nullary_writes, unary_writes, binary_writes, ternary_writes, reshape_writes,
    Finset.singleton_subset_iff, List.mem_toFinset, List.mem_map]
  repeat' apply And.intro
  all_goals exact ⟨_, by decide, rfl⟩

/-- A buffer the stretch does not write keeps its contents across it. -/
theorem pass_hostOps6 (V : Valuation τ sig (Elt F)) {r : Ref sig .tc} (hr : r ∉ wr6) :
    after hostOps6 V (Proc.devRef .tc r) = V (Proc.devRef .tc r) :=
  after_of_writes_sub hostOps6 V hostOps6_writes hr

/-- The buffers the stretch `hostOps7` writes. -/
abbrev wr7 : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v120]

theorem hostOps7_writes : (hostOps7 : List (HloOp τ sig (Elt F))).Forall fun op => op.writes ⊆ (wr7.map (Proc.devRef (τ := τ) .tc)).toFinset := by
  simp only [hostOps7, List.Forall, nullary_writes, unary_writes, binary_writes, ternary_writes, reshape_writes,
    Finset.singleton_subset_iff, List.mem_toFinset, List.mem_map]
  repeat' apply And.intro
  all_goals exact ⟨_, by decide, rfl⟩

/-- A buffer the stretch does not write keeps its contents across it. -/
theorem pass_hostOps7 (V : Valuation τ sig (Elt F)) {r : Ref sig .tc} (hr : r ∉ wr7) :
    after hostOps7 V (Proc.devRef .tc r) = V (Proc.devRef .tc r) :=
  after_of_writes_sub hostOps7 V hostOps7_writes hr

/-- The buffers the stretch `hostOps7_1` writes. -/
abbrev wr7_1 : List (Ref sig .tc) := [main_v121, main_v122, main_cst_26, main_v123, main_v124, main_cst_27, main_v125, main_v126]

theorem hostOps7_1_writes : (hostOps7_1 : List (HloOp τ sig (Elt F))).Forall fun op => op.writes ⊆ (wr7_1.map (Proc.devRef (τ := τ) .tc)).toFinset := by
  simp only [hostOps7_1, List.Forall, nullary_writes, unary_writes, binary_writes, ternary_writes, reshape_writes,
    Finset.singleton_subset_iff, List.mem_toFinset, List.mem_map]
  repeat' apply And.intro
  all_goals exact ⟨_, by decide, rfl⟩

/-- A buffer the stretch does not write keeps its contents across it. -/
theorem pass_hostOps7_1 (V : Valuation τ sig (Elt F)) {r : Ref sig .tc} (hr : r ∉ wr7_1) :
    after hostOps7_1 V (Proc.devRef .tc r) = V (Proc.devRef .tc r) :=
  after_of_writes_sub hostOps7_1 V hostOps7_1_writes hr

variable (m : (ℓ : Loc nD τ sig) → Buf (Elt F) ℓ) (ρ : Dev nD → PrngReg) (c : Dev nD)

/-- The buffers read again after the first region and never a window of a region before their last reading: the two
    edge-index vectors, the inverse square root of the degrees, its square, and the arguments the pooling and the head read. -/
abbrev kept : List (Ref sig .tc) :=
  [main_v1, main_v3, main_v10, main_v11, main_arg3, main_arg7, main_arg8, main_arg9, main_arg10]

theorem kept2 : ∀ b ∈ kept, W2 m ρ c (Proc.devRef .tc b) = W1 m ρ c (Proc.devRef .tc b) :=
  fun b hb => W2_of_ne m ρ c b ((by decide : ∀ b ∈ kept, ∀ w, Pipeline.arrRef spec0 w ≠ b) b hb)
theorem kept3 : ∀ b ∈ kept, W3 m ρ c (Proc.devRef .tc b) = W1 m ρ c (Proc.devRef .tc b) :=
  fun b hb => (pass_hostOps1 (W2 m ρ c) ((by decide : ∀ b ∈ kept, b ∉ wr1) b hb)).trans (kept2 m ρ c b hb)
theorem kept4 : ∀ b ∈ kept, W4 m ρ c (Proc.devRef .tc b) = W1 m ρ c (Proc.devRef .tc b) :=
  fun b hb => (W4_of_ne m ρ c b ((by decide : ∀ b ∈ kept, ∀ w, Pipeline.arrRef spec1 w ≠ b) b hb)).trans (kept3 m ρ c b hb)
theorem kept5 : ∀ b ∈ kept, W5 m ρ c (Proc.devRef .tc b) = W1 m ρ c (Proc.devRef .tc b) :=
  fun b hb => (W5_of_ne m ρ c b ((by decide : ∀ b ∈ kept, ∀ w, Pipeline.arrRef spec2 w ≠ b) b hb)).trans (kept4 m ρ c b hb)
theorem kept6 : ∀ b ∈ kept, W6 m ρ c (Proc.devRef .tc b) = W1 m ρ c (Proc.devRef .tc b) :=
  fun b hb => (pass_hostOps3 (W5 m ρ c) ((by decide : ∀ b ∈ kept, b ∉ wr3) b hb)).trans (kept5 m ρ c b hb)
theorem kept7 : ∀ b ∈ kept, W7 m ρ c (Proc.devRef .tc b) = W1 m ρ c (Proc.devRef .tc b) :=
  fun b hb => (W7_of_ne m ρ c b ((by decide : ∀ b ∈ kept, ∀ w, Pipeline.arrRef spec3 w ≠ b) b hb)).trans (kept6 m ρ c b hb)
theorem kept8 : ∀ b ∈ kept, W8 m ρ c (Proc.devRef .tc b) = W1 m ρ c (Proc.devRef .tc b) :=
  fun b hb => (W8_of_ne m ρ c b ((by decide : ∀ b ∈ kept, ∀ w, Pipeline.arrRef spec4 w ≠ b) b hb)).trans (kept7 m ρ c b hb)
theorem kept9 : ∀ b ∈ kept, W9 m ρ c (Proc.devRef .tc b) = W1 m ρ c (Proc.devRef .tc b) :=
  fun b hb => (pass_hostOps5 (W8 m ρ c) ((by decide : ∀ b ∈ kept, b ∉ wr5) b hb)).trans (kept8 m ρ c b hb)
theorem kept10 : ∀ b ∈ kept, W10 m ρ c (Proc.devRef .tc b) = W1 m ρ c (Proc.devRef .tc b) :=
  fun b hb => (W10_of_ne m ρ c b ((by decide : ∀ b ∈ kept, ∀ w, Pipeline.arrRef spec5 w ≠ b) b hb)).trans (kept9 m ρ c b hb)
theorem kept11 : ∀ b ∈ kept, W11 m ρ c (Proc.devRef .tc b) = W1 m ρ c (Proc.devRef .tc b) :=
  fun b hb => (pass_hostOps6 (W10 m ρ c) ((by decide : ∀ b ∈ kept, b ∉ wr6) b hb)).trans (kept10 m ρ c b hb)

/-- The second and third weight matrices are each read once, as a window of their own matrix-product region; up to that
    region's entry no segment has them as a window or writes them. -/
theorem W4_arg5 : W4 m ρ c (Proc.devRef .tc main_arg5) = W1 m ρ c (Proc.devRef .tc main_arg5) :=
  (W4_of_ne m ρ c main_arg5 (by decide)).trans ((pass_hostOps1 (W2 m ρ c) (by decide)).trans (W2_of_ne m ρ c main_arg5 (by decide)))
theorem W7_arg6 : W7 m ρ c (Proc.devRef .tc main_arg6) = W1 m ρ c (Proc.devRef .tc main_arg6) :=
  (W7_of_ne m ρ c main_arg6 (by decide)).trans ((pass_hostOps3 (W5 m ρ c) (by decide)).trans ((W5_of_ne m ρ c main_arg6 (by decide)).trans
    ((W4_of_ne m ρ c main_arg6 (by decide)).trans ((pass_hostOps1 (W2 m ρ c) (by decide)).trans (W2_of_ne m ρ c main_arg6 (by decide))))))

/-- An argument array is as launched after the first stretch (no host operation writes an argument). -/
theorem W1_arg {r : Ref sig .tc} (hr : r ∉ wr0) : W1 m ρ c (Proc.devRef .tc r) = W0 m ρ c (Proc.devRef .tc r) :=
  pass_hostOps0 (W0 m ρ c) hr

end Cert.KernelIdeal.Carry

end
-- ==== Proof.Fold1.lean ====
/-
  The first stretch of host operations of the idealized kernel, read against the reference's stages: from the edge
  list it computes the source and target index vectors, the in-degree of every node plus one (a scatter-add of ones),
  its inverse square root d, and d*d — the same operations, on the same argument, as the reference's first stages.
  The arguments themselves are untouched by the stretch.
-/
import proofs.«121664_j30580167148117_1_alg».proof.Proof.Gen.KernelIdeal.Frame
import proofs.«121664_j30580167148117_1_alg».proof.Proof.Gen.ReferenceIdeal.Read
import proofs.«121664_j30580167148117_1_alg».proof.Proof.Carry
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Carry
open Cert.ReferenceIdeal.Read

variable (m : (ℓ : Loc nD τ sig) → Buf (Elt Ideal) ℓ) (ρ : Dev nD → PrngReg) (c : Dev nD)

/-- The source-node index vector (row 0 of the edge list). -/
theorem W1_v1 : W1 m ρ c (Proc.devRef .tc main_v1) = val_main_v1 (F := Ideal) (m ((c.tc : Thread nD τ).loc main_arg1)) := by
  show StableHlo.after hostOps0 (W0 m ρ c) (Proc.devRef .tc main_v1) = _
  after_results
  rfl

/-- The target-node index vector (row 1 of the edge list). -/
theorem W1_v3 : W1 m ρ c (Proc.devRef .tc main_v3) = val_main_v3 (F := Ideal) (m ((c.tc : Thread nD τ).loc main_arg1)) := by
  show StableHlo.after hostOps0 (W0 m ρ c) (Proc.devRef .tc main_v3) = _
  after_results
  rfl

/-- d = (in-degree + 1)^(-1/2), node by node. -/
theorem W1_v10 : W1 m ρ c (Proc.devRef .tc main_v10) = val_main_v10 (F := Ideal) (m ((c.tc : Thread nD τ).loc main_arg1)) := by
  show StableHlo.after hostOps0 (W0 m ρ c) (Proc.devRef .tc main_v10) = _
  after_results
  rfl

/-- d * d, the weight of a node's own contribution. -/
theorem W1_v11 : W1 m ρ c (Proc.devRef .tc main_v11) = val_main_v40 (F := Ideal) (m ((c.tc : Thread nD τ).loc main_arg1)) := by
  show StableHlo.after hostOps0 (W0 m ρ c) (Proc.devRef .tc main_v11) = _
  after_results
  rfl

theorem W1_arg0 : W1 m ρ c (Proc.devRef .tc main_arg0) = (m ((c.tc : Thread nD τ).loc main_arg0)) := W1_arg m ρ c (by decide)
theorem W1_arg3 : W1 m ρ c (Proc.devRef .tc main_arg3) = (m ((c.tc : Thread nD τ).loc main_arg3)) := W1_arg m ρ c (by decide)
theorem W1_arg4 : W1 m ρ c (Proc.devRef .tc main_arg4) = (m ((c.tc : Thread nD τ).loc main_arg4)) := W1_arg m ρ c (by decide)
theorem W1_arg5 : W1 m ρ c (Proc.devRef .tc main_arg5) = (m ((c.tc : Thread nD τ).loc main_arg5)) := W1_arg m ρ c (by decide)
theorem W1_arg6 : W1 m ρ c (Proc.devRef .tc main_arg6) = (m ((c.tc : Thread nD τ).loc main_arg6)) := W1_arg m ρ c (by decide)
theorem W1_arg7 : W1 m ρ c (Proc.devRef .tc main_arg7) = (m ((c.tc : Thread nD τ).loc main_arg7)) := W1_arg m ρ c (by decide)
theorem W1_arg8 : W1 m ρ c (Proc.devRef .tc main_arg8) = (m ((c.tc : Thread nD τ).loc main_arg8)) := W1_arg m ρ c (by decide)
theorem W1_arg9 : W1 m ρ c (Proc.devRef .tc main_arg9) = (m ((c.tc : Thread nD τ).loc main_arg9)) := W1_arg m ρ c (by decide)
theorem W1_arg10 : W1 m ρ c (Proc.devRef .tc main_arg10) = (m ((c.tc : Thread nD τ).loc main_arg10)) := W1_arg m ρ c (by decide)

end Cert.Bridge

end
-- ==== Proof.Host4.lean ====
/-
  The stretch of host operations between the third layer and the head of the idealized kernel, read against the
  reference's stages: the mean of the node features over each graph of the batch (a scatter-add of the rows at the
  graph indices, divided by the number of nodes of the graph, at least one), and the two bias vectors laid out as rows.
-/
import proofs.«121664_j30580167148117_1_alg».proof.Proof.Gen.KernelIdeal.Frame
import proofs.«121664_j30580167148117_1_alg».proof.Proof.Gen.ReferenceIdeal.Read
import proofs.«121664_j30580167148117_1_alg».proof.Proof.Carry
import proofs.«121664_j30580167148117_1_alg».proof.Proof.Fold1
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Carry
open Cert.ReferenceIdeal.Read

variable (m : (ℓ : Loc nD τ sig) → Buf (Elt Ideal) ℓ) (ρ : Dev nD → PrngReg) (c : Dev nD)

/-- The pooled features: the reference's mean pooling, once the third layer's output is the reference's. -/
theorem pooled (hout : W10 m ρ c (Proc.devRef .tc main_v104) = val_main_v115 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) :
    W11 m ρ c (Proc.devRef .tc main_v116) = val_main_v127 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show StableHlo.after hostOps6 (W10 m ρ c) (Proc.devRef .tc main_v116) = _
  after_results_simp
  rw [kept10 m ρ c main_arg3 (by decide), W1_arg3, hout]
  rfl

/-- The first bias as a row: its entry (0, j) is the bias's entry j. -/
theorem bias1_at (j : Fin 256) : W11 m ρ c (Proc.devRef .tc main_v117) (ix2 (0 : Fin 1) j) = (m ((c.tc : Thread nD τ).loc main_arg8)) (ix1 j) := by
  show StableHlo.after hostOps6 (W10 m ρ c) (Proc.devRef .tc main_v117) (ix2 (0 : Fin 1) j) = _
  after_results_simp
  rw [kept10 m ρ c main_arg8 (by decide), W1_arg8]
  exact shapeCast_a_1a_apply _ _ 0 j

/-- The second bias as a row: its entry (0, q) is the bias's entry q. -/
theorem bias2_at (q : Fin 10) : W11 m ρ c (Proc.devRef .tc main_v118) (ix2 (0 : Fin 1) q) = (m ((c.tc : Thread nD τ).loc main_arg10)) (ix1 q) := by
  show StableHlo.after hostOps6 (W10 m ρ c) (Proc.devRef .tc main_v118) (ix2 (0 : Fin 1) q) = _
  after_results_simp
  rw [kept10 m ρ c main_arg10 (by decide), W1_arg10]
  exact shapeCast_a_1a_apply _ _ 0 q

theorem W11_arg7 : W11 m ρ c (Proc.devRef .tc main_arg7) = (m ((c.tc : Thread nD τ).loc main_arg7)) := (kept11 m ρ c main_arg7 (by decide)).trans (W1_arg7 m ρ c)
theorem W11_arg9 : W11 m ρ c (Proc.devRef .tc main_arg9) = (m ((c.tc : Thread nD τ).loc main_arg9)) := (kept11 m ρ c main_arg9 (by decide)).trans (W1_arg9 m ρ c)

end Cert.Bridge

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Host3.lean ====
/-
  The stretch of host operations between the third matrix product and the third add-and-rectify region of
  the idealized kernel, read against the reference's stages.  From the product h*W it gathers the rows of the edges'
  source nodes, scales row e by d[source e] * d[target e], and scatter-adds the scaled rows at the target nodes: the
  aggregate.  It also lays d*d out as a column.  Both are the reference's operations on the reference's operands, once
  the product is known to be the reference's product.
-/
import proofs.«121664_j30580167148117_1_alg».proof.Proof.Gen.KernelIdeal.Frame
import proofs.«121664_j30580167148117_1_alg».proof.Proof.Gen.ReferenceIdeal.Read
import proofs.«121664_j30580167148117_1_alg».proof.Proof.Carry
import proofs.«121664_j30580167148117_1_alg».proof.Proof.Fold1
import proofs.«121664_j30580167148117_1_alg».proof.Proof.LibKeepdims
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Carry
open Cert.ReferenceIdeal.Read

variable (m : (ℓ : Loc nD τ sig) → Buf (Elt Ideal) ℓ) (ρ : Dev nD → PrngReg) (c : Dev nD)

/-- The product h*W is not touched by the stretch. -/
theorem hwkeep3 : W9 m ρ c (Proc.devRef .tc main_v74) = W8 m ρ c (Proc.devRef .tc main_v74) :=
  pass_hostOps5 (W8 m ρ c) (by decide)

/-- The aggregate: the scatter-add, over the edges, of the scaled source rows of the product. -/
theorem agg3 (hhw : W8 m ρ c (Proc.devRef .tc main_v74) = val_main_v81 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) :
    W9 m ρ c (Proc.devRef .tc main_v102) = val_main_v109 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  show StableHlo.after hostOps5 (W8 m ρ c) (Proc.devRef .tc main_v102) = _
  after_results_simp
  rw [kept8 m ρ c main_v1 (by decide), kept8 m ρ c main_v3 (by decide), kept8 m ρ c main_v10 (by decide), hhw,
    W1_v1, W1_v3, W1_v10]
  rfl

/-- d*d laid out as a column: its entry (p, 0) is (d*d)[p]. -/
theorem col3_at (p : Fin 50000) :
    W9 m ρ c (Proc.devRef .tc main_v103) (ix2 p (0 : Fin 1)) = val_main_v110 (F := Ideal) (m ((c.tc : Thread nD τ).loc main_arg1)) (ix1 p) := by
  show StableHlo.after hostOps5 (W8 m ρ c) (Proc.devRef .tc main_v103) (ix2 p (0 : Fin 1)) = _
  after_results_simp
  rw [kept8 m ρ c main_v11 (by decide), W1_v11]
  exact shapeCast_a_a1_apply _ _ p 0

end Cert.Bridge

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«121664_j30580167148117_1_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.Lin4.lean ====
/-
  Region 4: a linear layer without bias.  Each of the ten grid points takes a block of 5000 rows of the
  [50000,256] input, the whole [256,256] weight matrix, and writes the block of 5000 rows of the [50000,256]
  output that holds the matrix product of the two.  Read at the ideal values, the output array after the
  region is, entry by entry, the product of the input array and the weight matrix as the region finds them:
  entry (p, q) is the sum over k < 256 of input(p, k) * weight(k, q).
-/
import Idealize.ShloMosaic.Lib.ValueIdx
import Idealize.ShloMosaic.Lib.Pipeline.Value
import Idealize.ShloMosaic.Lib.ValueLayout
import Idealize.ShloMosaic.PureOps.Ideal.Laws
import proofs.«121664_j30580167148117_1_alg».proof.Proof.Gen.KernelIdeal.Frame
import proofs.«121664_j30580167148117_1_alg».proof.Proof.LibMatmulSum
import proofs.«121664_j30580167148117_1_alg».proof.Proof.LibPlainLists

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

/-- The body's loads and its store start at offsets (0, 0) of their buffers. -/
theorem lin4_offsets : (![0, 0] : Fin 2 → Nat) = fun _ => 0 := funext fun a => by fin_cases a <;> rfl

/-- The body's value at entry (p, q) of its block: the cast to the same shape and the format changes are the
    identity on extended reals, and the product into the zero accumulator is the sum over the contracted axis of
    length 256. -/
theorem lin4_pay (x0 : Vec Ideal S5000x256 .f32) (x1 : Vec Ideal S256x256 .f32) (p : Fin 5000) (q : Fin 256) :
    k4_pay1 x0 x1 (ix2 p q) = ∑ k : Fin 256, x0 (ix2 p k) * x1 (ix2 k q) := by
  unfold k4_pay1
  refine (Cert.LibMatmulSum.matmul_zero_at
    (Cert.LibMatmulSum.Plain.of_lists dot_S5000x256_S256x256_S5000x256_1_0_0_1_n_n rfl rfl rfl rfl rfl rfl) none _ _ p q).trans ?_
  refine Finset.sum_congr rfl fun k _ => ?_
  show (shapeCast S5000x256 x0 shapeCasts_S5000x256_S5000x256) (ix2 p k) * x1 (ix2 k q) = x0 (ix2 p k) * x1 (ix2 k q)
  rw [shapeCast_self]

/-- The block indices at grid point t: the input and the output are at row block t, column block 0; the weight
    matrix is its one block (0, 0) at every point. -/
theorem lin4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The product of a [50000,256] array and a [256,256] matrix, entry by entry. -/
abbrev lin4_prod (a : S50000x256.Idx → EReal) (w : S256x256.Idx → EReal) : S50000x256.Idx → EReal :=
  fun i => ∑ k : Fin 256, a (ix2 (i 0 : Fin 50000) k) * w (ix2 k (i 1 : Fin 256))

/-- Entry (p, q) of the output block at point t is entry (5000 t + p, q) of the product: the input block's row p
    is the input array's row 5000 t + p, and the weight block is the weight matrix. -/
theorem lin4_block (V : (c : Dev nD) → (b : Ref sig .tc) → Buf (Elt Ideal) ((c : Thread nD τ).loc b)) (c : Dev nD)
    (t : Fin cfg4.N) (j : S5000x256.Idx) :
    k4_pay1 (iblk4 V c 0 t) (iblk4 V c 1 t) j
      = lin4_prod (V c main_v73) (V c main_arg6) (((cfg4.win 2).blk t).view.emb j) := by
  obtain ⟨p, q, rfl⟩ : ∃ (p : Fin 5000) (q : Fin 256), j = ix2 p q := ⟨j 0, j 1, eq_ix2 j⟩
  refine (lin4_pay _ _ p q).trans ?_
  obtain ⟨e0, e1, e2, e3, e4, e5⟩ := lin4_idx t
  refine Finset.sum_congr rfl fun k _ => ?_
  have hp : p.val < 5000 := p.isLt
  have hq : q.val < 256 := q.isLt
  have hk : k.val < 256 := k.isLt
  have h0 : iblk4 V c 0 t (ix2 p k)
      = V c main_v73 (ix2 ((((cfg4.win 2).blk t).view.emb (ix2 p q)) 0 : Fin 50000) k) := by
    show V c main_v73 (((cfg4.win 0).blk t).view.emb (ix2 p k)) = _
    congr 1
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 256 + 1 * k.val = k.val; omega
  have h1 : iblk4 V c 1 t (ix2 k q)
      = V c main_arg6 (ix2 k ((((cfg4.win 2).blk t).view.emb (ix2 p q)) 1 : Fin 256)) := by
    show V c main_arg6 (((cfg4.win 1).blk t).view.emb (ix2 k q)) = _
    congr 1
    funext a; apply Fin.ext
    match a with
    | ⟨0, _⟩ => show win4_1.index t (0 : Fin 2) * 256 + 1 * k.val = k.val; omega
    | ⟨1, _⟩ => show win4_1.index t (1 : Fin 2) * 256 + 1 * q.val = win4_2.index t (1 : Fin 2) * 256 + 1 * q.val; omega
  rw [h0, h1]

/-- What point t writes back is block t of the product of the arrays the region finds. -/
theorem lin4_flushed (V : (c : Dev nD) → (b : Ref sig .tc) → Buf (Elt Ideal) ((c : Thread nD τ).loc b)) (c : Dev nD)
    (t : Fin cfg4.N) :
    (dat4 (F := Ideal) V c).flushed 2 t
      = ((cfg4.win 2).blk t).view.read (Elt Ideal) (lin4_prod (V c main_v73) (V c main_arg6)) := by
  show (cfg4.win 2).cut (grid4.coords t) ((dat4 (F := Ideal) V c).after 2 t) = _
  rw [after4_2]
  unfold out4_2
  rw [View.canon_unit_zero lin4_offsets]
  simp only [View.ld_unit_zero (S := S5000x256) lin4_offsets, View.ld_unit_zero (S := S256x256) lin4_offsets]
  funext j
  exact lin4_block V c t j

/-- An index of the output array is in point t's block iff each coordinate is in the block's range on its axis. -/
theorem lin4_mem_blk (t : Fin cfg4.N) (i : S50000x256.Idx) :
    i ∈ ((cfg4.win 2).blk t).view.set ↔ ∀ a : Fin 2, win4_2.index t a * S5000x256.size a ≤ (i a).val
      ∧ (i a).val < win4_2.index t a * S5000x256.size a + S5000x256.size a := by
  show i ∈ ((View.whole main_v74).slice (win4_2.rect t)).set ↔ _
  rw [View.set_slice_whole, Rect.mem_set_unit]
  exact Iff.rfl

/-- Every entry of the output array is written back by some point: row r by point r / 5000. -/
theorem lin4_cover (i : S50000x256.Idx) :
    ∃ t : Fin cfg4.N, (cfg4.win 2).flush t = true ∧ i ∈ ((cfg4.win 2).blk t).view.set := by
  have hi0 : (i 0).val < 50000 := idx2_lt0 i
  have hi1 : (i 1).val < 256 := idx2_lt1 i
  have hN : grid4.N = 10 := N_4
  obtain ⟨t, ht⟩ : ∃ t : Fin cfg4.N, t.val = (i 0).val / 5000 :=
    ⟨⟨(i 0).val / 5000, by show (i 0).val / 5000 < grid4.N; rw [hN]; omega⟩, rfl⟩
  obtain ⟨-, -, -, -, e4, e5⟩ := lin4_idx t
  refine ⟨t, flush4_2 t, ?_⟩
  rw [lin4_mem_blk]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 256 ≤ (i 1).val ∧ (i 1).val < win4_2.index t (1 : Fin 2) * 256 + 256
    omega

/-- The output array after the region is the product of the input array and the weight matrix. -/
theorem lin4_arr (V : (c : Dev nD) → (b : Ref sig .tc) → Buf (Elt Ideal) ((c : Thread nD τ).loc b)) (c : Dev nD) :
    (dat4 (F := Ideal) V c).arrAt 2 cfg4.N = lin4_prod (V c main_v73) (V c main_arg6) :=
  (dat4 (F := Ideal) V c).arrAt_eq_of_cover 2 (lin4_prod (V c main_v73) (V c main_arg6))
    (fun t _ => lin4_flushed V c t) lin4_cover

/-- Entry (p, q) of the output array after the region. -/
theorem lin4_at (V : (c : Dev nD) → (b : Ref sig .tc) → Buf (Elt Ideal) ((c : Thread nD τ).loc b)) (c : Dev nD)
    (p : Fin 50000) (q : Fin 256) :
    (dat4 (F := Ideal) V c).arrAt 2 cfg4.N (ix2 p q)
      = ∑ k : Fin 256, @HMul.hMul EReal EReal EReal _ (V c main_v73 (ix2 p k)) (V c main_arg6 (ix2 k q)) :=
  congrFun (lin4_arr V c) (ix2 p q)

end Cert.KernelIdeal.RegionValue

end
-- ==== Proof.AddRelu5.lean ====
/-
  The add-and-relu region whose output is main_v104: after the region, entry (r, s) of the output array is
  max(aggregate(r, s) + scale(r, 0) * product(r, s), 0), for the aggregate (main_v102), product (main_v74) and scale-column
  (main_v103) arrays the region reads.  The body computes that on one block of 2000 rows; every window's block at a grid
  point is the same row block (column block 0), the 25 row blocks tile the 50000 rows, and row r lies in block r / 2000.
-/
import Idealize.ShloMosaic.Lib.ValueIdx
import Idealize.ShloMosaic.Lib.Pipeline.Value
import Idealize.ShloMosaic.Lib.ValueLayout
import Idealize.ShloMosaic.PureOps.Ideal.Laws
import proofs.«121664_j30580167148117_1_alg».proof.Proof.Gen.KernelIdeal.Frame
import proofs.«121664_j30580167148117_1_alg».proof.Proof.LibKeepdims

noncomputable section

namespace Cert.KernelIdeal.RegionValue

open Idealize.ShloMosaic Idealize.ShloMosaic.ValueIdx Idealize.SL.Sem Cert.KernelIdeal Cert.KernelIdeal.Gen
open Idealize.ShloMosaic.TcCoe
open Idealize.ShloMosaic.Pipeline (Dat)

/-- The zero offsets of a whole-block access, as the constant function. -/
theorem zero_offsets5 : (![0, 0] : Fin 2 → Nat) = fun _ => 0 := funext fun a => by fin_cases a <;> rfl

/-- The body's payload at row p, column q of its block: the scale column's entry of row p times the product block's
    entry, added to the aggregate block's entry, and the larger of that and zero. -/
theorem pay5_at (x0 : Vec Ideal S2000x256 .f32) (x2 : Vec Ideal S2000x1 .f32) (x4 : Vec Ideal S2000x256 .f32) (p : Fin 2000) (q : Fin 256) :
    k5_pay1 x0 x2 x4 (ix2 p q)
      = FloatOps.maximumf (FloatOps.addf (x0 (ix2 p q)) (FloatOps.mulf (x2 (ix2 p (0 : Fin 1))) (x4 (ix2 p q)))) (Scalar.ofBits (F := Ideal) .f32 0x00000000#32) := by
  unfold k5_pay1
  simp only [shapeCast_self]
  show max (x0 (ix2 p q) + broadcastTo S2000x256 x2 broadcasts_S2000x1_S2000x256 (ix2 p q) * x4 (ix2 p q)) _ = _
  rw [broadcastTo_a1_ab_apply]
  rfl

/-- At grid point t every window's block index is t on the row axis and 0 on the column axis (decided over the grid). -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- The region's output as one function of the three arrays it reads: at row r and column s, the larger of zero and
    aggregate(r, s) + scale(r, 0) * product(r, s). -/
def addRelu5 (agg : S50000x256.Idx → Elt Ideal .f32) (prod : S50000x256.Idx → Elt Ideal .f32) (scale : S50000x1.Idx → Elt Ideal .f32) :
    S50000x256.Idx → Elt Ideal .f32 := fun i =>
  FloatOps.maximumf (FloatOps.addf (agg i) (FloatOps.mulf (scale (ix2 (i 0) (0 : Fin 1))) (prod i))) (Scalar.ofBits (F := Ideal) .f32 0x00000000#32)

/-- The body's payload on three blocks that are restrictions of whole arrays along one embedding of block indices
    (the scale block restricted along the same rows, column 0) is the restriction of addRelu5 of the arrays. -/
theorem pay5_restrict (x0 : Vec Ideal S2000x256 .f32) (x2 : Vec Ideal S2000x1 .f32) (x4 : Vec Ideal S2000x256 .f32)
    (agg prod : S50000x256.Idx → Elt Ideal .f32) (scale : S50000x1.Idx → Elt Ideal .f32) (e : S2000x256.Idx → S50000x256.Idx)
    (h0 : ∀ y, x0 y = agg (e y)) (h4 : ∀ y, x4 y = prod (e y))
    (h2 : ∀ y : S2000x256.Idx, x2 (ix2 (y 0) (0 : Fin 1)) = scale (ix2 (e y 0) (0 : Fin 1))) (j : S2000x256.Idx) :
    k5_pay1 x0 x2 x4 j = addRelu5 agg prod scale (e j) := by
  obtain ⟨p, q, rfl⟩ : ∃ (p : Fin 2000) (q : Fin 256), j = ix2 p q := ⟨j 0, j 1, eq_ix2 j⟩
  rw [pay5_at, h0, h4]
  have h := h2 (ix2 p q)
  rw [show (ix2 p q : S2000x256.Idx) 0 = p from rfl] at h
  rw [h]
  rfl

/-- What grid point t writes back to the output array is block t of addRelu5 of the arrays the region reads. -/
theorem flushed5_eq (c : Dev nD) (t : Fin cfg5.N) :
    (dat5 (F := Ideal) V c).flushed 3 t
      = ((cfg5.win 3).blk t).view.read (Elt Ideal) (addRelu5 (V c main_v102) (V c main_v74) (V c main_v103)) := by
  show (cfg5.win 3).cut (grid5.coords t) ((dat5 V c).after 3 t) = _
  rw [after5_3]
  unfold out5_3
  rw [View.canon_unit_zero zero_offsets5]
  simp only [View.ld_unit_zero (S := S2000x256) zero_offsets5, View.ld_unit_zero (S := S2000x1) zero_offsets5]
  obtain ⟨e00, e01, e10, e11, e20, e21, e30, e31⟩ := idx_facts5 t
  funext j
  refine pay5_restrict (iblk5 V c 0 t) (iblk5 V c 2 t) (iblk5 V c 1 t) (V c main_v102) (V c main_v74) (V c main_v103)
    (fun y => ((cfg5.win 3).blk t).view.emb y) ?_ ?_ ?_ j
  · intro y
    show V c main_v102 (((cfg5.win 0).blk t).view.emb y) = V c main_v102 (((cfg5.win 3).blk t).view.emb y)
    refine congrArg _ (funext fun a => Fin.ext ?_)
    match a with
    | ⟨0, _⟩ => show win5_0.index t (0 : Fin 2) * 2000 + 1 * (y 0).val = win5_3.index t (0 : Fin 2) * 2000 + 1 * (y 0).val; omega
    | ⟨1, _⟩ => show win5_0.index t (1 : Fin 2) * 256 + 1 * (y 1).val = win5_3.index t (1 : Fin 2) * 256 + 1 * (y 1).val; omega
  · intro y
    show V c main_v74 (((cfg5.win 1).blk t).view.emb y) = V c main_v74 (((cfg5.win 3).blk t).view.emb y)
    refine congrArg _ (funext fun a => Fin.ext ?_)
    match a with
    | ⟨0, _⟩ => show win5_1.index t (0 : Fin 2) * 2000 + 1 * (y 0).val = win5_3.index t (0 : Fin 2) * 2000 + 1 * (y 0).val; omega
    | ⟨1, _⟩ => show win5_1.index t (1 : Fin 2) * 256 + 1 * (y 1).val = win5_3.index t (1 : Fin 2) * 256 + 1 * (y 1).val; omega
  · intro y
    show V c main_v103 (((cfg5.win 2).blk t).view.emb (ix2 (y 0) (0 : Fin 1))) = V c main_v103 (ix2 (((cfg5.win 3).blk t).view.emb y 0) (0 : Fin 1))
    refine congrArg _ (funext fun a => Fin.ext ?_)
    match a with
    | ⟨0, _⟩ => show win5_2.index t (0 : Fin 2) * 2000 + 1 * (y 0).val = win5_3.index t (0 : Fin 2) * 2000 + 1 * (y 0).val; omega
    | ⟨1, _⟩ => show win5_2.index t (1 : Fin 2) * 1 + 1 * 0 = 0; omega

/-- An index of the output array is in point t's block iff each coordinate is in the block's range on its axis. -/
theorem mem_blk5 (t : Fin cfg5.N) (i : S50000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v104).slice (win5_3.rect t)).set ↔ _
  rw [View.set_slice_whole, Rect.mem_set_unit]
  exact Iff.rfl

/-- Every index of the output array is in the block of the point its row falls in: row r is in block r / 2000. -/
theorem cover5 (i : S50000x256.Idx) : ∃ t : Fin cfg5.N, (cfg5.win 3).flush t = true ∧ i ∈ ((cfg5.win 3).blk t).view.set := by
  have hi0 : (i 0).val < 50000 := (i 0).isLt
  have hi1 : (i 1).val < 256 := (i 1).isLt
  have hN : cfg5.N = 25 := N_5
  let t : Fin cfg5.N := ⟨(i 0).val / 2000, by rw [hN]; omega⟩
  obtain ⟨e00, e01, e10, e11, e20, e21, e30, e31⟩ := idx_facts5 t
  have ht : t.val = (i 0).val / 2000 := rfl
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 256 ≤ (i 1).val ∧ (i 1).val < win5_3.index t (1 : Fin 2) * 256 + 256; omega

/-- The output array after the region is addRelu5 of the arrays the region reads. -/
theorem addrelu5_arr (c : Dev nD) :
    (dat5 (F := Ideal) V c).arrAt 3 cfg5.N = addRelu5 (V c main_v102) (V c main_v74) (V c main_v103) :=
  (dat5 (F := Ideal) V c).arrAt_eq_of_cover 3 (addRelu5 (V c main_v102) (V c main_v74) (V c main_v103))
    (fun t _ => flushed5_eq V c t) cover5

/-- Entry (p, q) of the output array after the region. -/
theorem addrelu5_at (c : Dev nD) (p : Fin 50000) (q : Fin 256) :
    (Gen.dat5 (F := Ideal) V c).arrAt 3 cfg5.N (ix2 p q)
      = FloatOps.maximumf (FloatOps.addf (V c main_v102 (ix2 p q)) (FloatOps.mulf (V c main_v103 (ix2 p (0 : Fin 1))) (V c main_v74 (ix2 p q)))) (Scalar.ofBits (F := Ideal) .f32 0x00000000#32) :=
  congrFun (addrelu5_arr V c) (ix2 p q)

end Cert.KernelIdeal.RegionValue

end
-- ==== Proof.Host2.lean ====
/-
  The stretch of host operations between the second matrix product and the second add-and-rectify region of
  the idealized kernel, read against the reference's stages.  From the product h*W it gathers the rows of the edges'
  source nodes, scales row e by d[source e] * d[target e], and scatter-adds the scaled rows at the target nodes: the
  aggregate.  It also lays d*d out as a column.  Both are the reference's operations on the reference's operands, once
  the product is known to be the reference's product.
-/
import proofs.«121664_j30580167148117_1_alg».proof.Proof.Gen.KernelIdeal.Frame
import proofs.«121664_j30580167148117_1_alg».proof.Proof.Gen.ReferenceIdeal.Read
import proofs.«121664_j30580167148117_1_alg».proof.Proof.Carry
import proofs.«121664_j30580167148117_1_alg».proof.Proof.Fold1
import proofs.«121664_j30580167148117_1_alg».proof.Proof.LibKeepdims
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Carry
open Cert.ReferenceIdeal.Read

variable (m : (ℓ : Loc nD τ sig) → Buf (Elt Ideal) ℓ) (ρ : Dev nD → PrngReg) (c : Dev nD)

/-- The product h*W is not touched by the stretch. -/
theorem hwkeep2 : W6 m ρ c (Proc.devRef .tc main_v43) = W5 m ρ c (Proc.devRef .tc main_v43) :=
  pass_hostOps3 (W5 m ρ c) (by decide)

/-- The aggregate: the scatter-add, over the edges, of the scaled source rows of the product. -/
theorem agg2 (hhw : W5 m ρ c (Proc.devRef .tc main_v43) = val_main_v46 (F := Ideal) (m ((c.tc : Thread nD τ).loc main_arg0)) (m ((c.tc : Thread nD τ).loc main_arg1)) (m ((c.tc : Thread nD τ).loc main_arg4)) (m ((c.tc : Thread nD τ).loc main_arg5))) :
    W6 m ρ c (Proc.devRef .tc main_v71) = val_main_v74 (F := Ideal) (m ((c.tc : Thread nD τ).loc main_arg0)) (m ((c.tc : Thread nD τ).loc main_arg1)) (m ((c.tc : Thread nD τ).loc main_arg4)) (m ((c.tc : Thread nD τ).loc main_arg5)) := by
  show StableHlo.after hostOps3 (W5 m ρ c) (Proc.devRef .tc main_v71) = _
  after_results_simp
  rw [kept5 m ρ c main_v1 (by decide), kept5 m ρ c main_v3 (by decide), kept5 m ρ c main_v10 (by decide), hhw,
    W1_v1, W1_v3, W1_v10]
  rfl

/-- d*d laid out as a column: its entry (p, 0) is (d*d)[p]. -/
theorem col2_at (p : Fin 50000) :
    W6 m ρ c (Proc.devRef .tc main_v72) (ix2 p (0 : Fin 1)) = val_main_v75 (F := Ideal) (m ((c.tc : Thread nD τ).loc main_arg1)) (ix1 p) := by
  show StableHlo.after hostOps3 (W5 m ρ c) (Proc.devRef .tc main_v72) (ix2 p (0 : Fin 1)) = _
  after_results_simp
  rw [kept5 m ρ c main_v11 (by decide), W1_v11]
  exact shapeCast_a_a1_apply _ _ p 0

end Cert.Bridge

end
-- ==== Proof.Lin2.lean ====
/-
  Region 2: a linear layer without bias.  Each of the ten grid points takes a block of 5000 rows of the
  [50000,256] input, the whole [256,256] weight matrix, and writes the block of 5000 rows of the [50000,256]
  output that holds the matrix product of the two.  Read at the ideal values, the output array after the
  region is, entry by entry, the product of the input array and the weight matrix as the region finds them:
  entry (p, q) is the sum over k < 256 of input(p, k) * weight(k, q).
-/
import Idealize.ShloMosaic.Lib.ValueIdx
import Idealize.ShloMosaic.Lib.Pipeline.Value
import Idealize.ShloMosaic.Lib.ValueLayout
import Idealize.ShloMosaic.PureOps.Ideal.Laws
import proofs.«121664_j30580167148117_1_alg».proof.Proof.Gen.KernelIdeal.Frame
import proofs.«121664_j30580167148117_1_alg».proof.Proof.LibMatmulSum
import proofs.«121664_j30580167148117_1_alg».proof.Proof.LibPlainLists

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

/-- The body's loads and its store start at offsets (0, 0) of their buffers. -/
theorem lin2_offsets : (![0, 0] : Fin 2 → Nat) = fun _ => 0 := funext fun a => by fin_cases a <;> rfl

/-- The body's value at entry (p, q) of its block: the cast to the same shape and the format changes are the
    identity on extended reals, and the product into the zero accumulator is the sum over the contracted axis of
    length 256. -/
theorem lin2_pay (x0 : Vec Ideal S5000x256 .f32) (x1 : Vec Ideal S256x256 .f32) (p : Fin 5000) (q : Fin 256) :
    k2_pay1 x0 x1 (ix2 p q) = ∑ k : Fin 256, x0 (ix2 p k) * x1 (ix2 k q) := by
  unfold k2_pay1
  refine (Cert.LibMatmulSum.matmul_zero_at
    (Cert.LibMatmulSum.Plain.of_lists dot_S5000x256_S256x256_S5000x256_1_0_0_1_n_n rfl rfl rfl rfl rfl rfl) none _ _ p q).trans ?_
  refine Finset.sum_congr rfl fun k _ => ?_
  show (shapeCast S5000x256 x0 shapeCasts_S5000x256_S5000x256) (ix2 p k) * x1 (ix2 k q) = x0 (ix2 p k) * x1 (ix2 k q)
  rw [shapeCast_self]

/-- The block indices at grid point t: the input and the output are at row block t, column block 0; the weight
    matrix is its one block (0, 0) at every point. -/
theorem lin2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The product of a [50000,256] array and a [256,256] matrix, entry by entry. -/
abbrev lin2_prod (a : S50000x256.Idx → EReal) (w : S256x256.Idx → EReal) : S50000x256.Idx → EReal :=
  fun i => ∑ k : Fin 256, a (ix2 (i 0 : Fin 50000) k) * w (ix2 k (i 1 : Fin 256))

/-- Entry (p, q) of the output block at point t is entry (5000 t + p, q) of the product: the input block's row p
    is the input array's row 5000 t + p, and the weight block is the weight matrix. -/
theorem lin2_block (V : (c : Dev nD) → (b : Ref sig .tc) → Buf (Elt Ideal) ((c : Thread nD τ).loc b)) (c : Dev nD)
    (t : Fin cfg2.N) (j : S5000x256.Idx) :
    k2_pay1 (iblk2 V c 0 t) (iblk2 V c 1 t) j
      = lin2_prod (V c main_v42) (V c main_arg5) (((cfg2.win 2).blk t).view.emb j) := by
  obtain ⟨p, q, rfl⟩ : ∃ (p : Fin 5000) (q : Fin 256), j = ix2 p q := ⟨j 0, j 1, eq_ix2 j⟩
  refine (lin2_pay _ _ p q).trans ?_
  obtain ⟨e0, e1, e2, e3, e4, e5⟩ := lin2_idx t
  refine Finset.sum_congr rfl fun k _ => ?_
  have hp : p.val < 5000 := p.isLt
  have hq : q.val < 256 := q.isLt
  have hk : k.val < 256 := k.isLt
  have h0 : iblk2 V c 0 t (ix2 p k)
      = V c main_v42 (ix2 ((((cfg2.win 2).blk t).view.emb (ix2 p q)) 0 : Fin 50000) k) := by
    show V c main_v42 (((cfg2.win 0).blk t).view.emb (ix2 p k)) = _
    congr 1
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 256 + 1 * k.val = k.val; omega
  have h1 : iblk2 V c 1 t (ix2 k q)
      = V c main_arg5 (ix2 k ((((cfg2.win 2).blk t).view.emb (ix2 p q)) 1 : Fin 256)) := by
    show V c main_arg5 (((cfg2.win 1).blk t).view.emb (ix2 k q)) = _
    congr 1
    funext a; apply Fin.ext
    match a with
    | ⟨0, _⟩ => show win2_1.index t (0 : Fin 2) * 256 + 1 * k.val = k.val; omega
    | ⟨1, _⟩ => show win2_1.index t (1 : Fin 2) * 256 + 1 * q.val = win2_2.index t (1 : Fin 2) * 256 + 1 * q.val; omega
  rw [h0, h1]

/-- What point t writes back is block t of the product of the arrays the region finds. -/
theorem lin2_flushed (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (lin2_prod (V c main_v42) (V c main_arg5)) := by
  show (cfg2.win 2).cut (grid2.coords t) ((dat2 (F := Ideal) V c).after 2 t) = _
  rw [after2_2]
  unfold out2_2
  rw [View.canon_unit_zero lin2_offsets]
  simp only [View.ld_unit_zero (S := S5000x256) lin2_offsets, View.ld_unit_zero (S := S256x256) lin2_offsets]
  funext j
  exact lin2_block V c t j

/-- An index of the output array is in point t's block iff each coordinate is in the block's range on its axis. -/
theorem lin2_mem_blk (t : Fin cfg2.N) (i : S50000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v43).slice (win2_2.rect t)).set ↔ _
  rw [View.set_slice_whole, Rect.mem_set_unit]
  exact Iff.rfl

/-- Every entry of the output array is written back by some point: row r by point r / 5000. -/
theorem lin2_cover (i : S50000x256.Idx) :
    ∃ t : Fin cfg2.N, (cfg2.win 2).flush t = true ∧ i ∈ ((cfg2.win 2).blk t).view.set := by
  have hi0 : (i 0).val < 50000 := idx2_lt0 i
  have hi1 : (i 1).val < 256 := idx2_lt1 i
  have hN : grid2.N = 10 := N_2
  obtain ⟨t, ht⟩ : ∃ t : Fin cfg2.N, t.val = (i 0).val / 5000 :=
    ⟨⟨(i 0).val / 5000, by show (i 0).val / 5000 < grid2.N; rw [hN]; omega⟩, rfl⟩
  obtain ⟨-, -, -, -, e4, e5⟩ := lin2_idx t
  refine ⟨t, flush2_2 t, ?_⟩
  rw [lin2_mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 256 ≤ (i 1).val ∧ (i 1).val < win2_2.index t (1 : Fin 2) * 256 + 256
    omega

/-- The output array after the region is the product of the input array and the weight matrix. -/
theorem lin2_arr (V : (c : Dev nD) → (b : Ref sig .tc) → Buf (Elt Ideal) ((c : Thread nD τ).loc b)) (c : Dev nD) :
    (dat2 (F := Ideal) V c).arrAt 2 cfg2.N = lin2_prod (V c main_v42) (V c main_arg5) :=
  (dat2 (F := Ideal) V c).arrAt_eq_of_cover 2 (lin2_prod (V c main_v42) (V c main_arg5))
    (fun t _ => lin2_flushed V c t) lin2_cover

/-- Entry (p, q) of the output array after the region. -/
theorem lin2_at (V : (c : Dev nD) → (b : Ref sig .tc) → Buf (Elt Ideal) ((c : Thread nD τ).loc b)) (c : Dev nD)
    (p : Fin 50000) (q : Fin 256) :
    (dat2 (F := Ideal) V c).arrAt 2 cfg2.N (ix2 p q)
      = ∑ k : Fin 256, @HMul.hMul EReal EReal EReal _ (V c main_v42 (ix2 p k)) (V c main_arg5 (ix2 k q)) :=
  congrFun (lin2_arr V c) (ix2 p q)

end Cert.KernelIdeal.RegionValue

end
-- ==== Proof.AddRelu3.lean ====
/-
  The add-and-relu region whose output is main_v73: after the region, entry (r, s) of the output array is
  max(aggregate(r, s) + scale(r, 0) * product(r, s), 0), for the aggregate (main_v71), product (main_v43) and scale-column
  (main_v72) arrays the region reads.  The body computes that on one block of 2000 rows; every window's block at a grid
  point is the same row block (column block 0), the 25 row blocks tile the 50000 rows, and row r lies in block r / 2000.
-/
import Idealize.ShloMosaic.Lib.ValueIdx
import Idealize.ShloMosaic.Lib.Pipeline.Value
import Idealize.ShloMosaic.Lib.ValueLayout
import Idealize.ShloMosaic.PureOps.Ideal.Laws
import proofs.«121664_j30580167148117_1_alg».proof.Proof.Gen.KernelIdeal.Frame
import proofs.«121664_j30580167148117_1_alg».proof.Proof.LibKeepdims

noncomputable section

namespace Cert.KernelIdeal.RegionValue

open Idealize.ShloMosaic Idealize.ShloMosaic.ValueIdx Idealize.SL.Sem Cert.KernelIdeal Cert.KernelIdeal.Gen
open Idealize.ShloMosaic.TcCoe
open Idealize.ShloMosaic.Pipeline (Dat)

/-- The zero offsets of a whole-block access, as the constant function. -/
theorem zero_offsets3 : (![0, 0] : Fin 2 → Nat) = fun _ => 0 := funext fun a => by fin_cases a <;> rfl

/-- The body's payload at row p, column q of its block: the scale column's entry of row p times the product block's
    entry, added to the aggregate block's entry, and the larger of that and zero. -/
theorem pay3_at (x0 : Vec Ideal S2000x256 .f32) (x2 : Vec Ideal S2000x1 .f32) (x4 : Vec Ideal S2000x256 .f32) (p : Fin 2000) (q : Fin 256) :
    k3_pay1 x0 x2 x4 (ix2 p q)
      = FloatOps.maximumf (FloatOps.addf (x0 (ix2 p q)) (FloatOps.mulf (x2 (ix2 p (0 : Fin 1))) (x4 (ix2 p q)))) (Scalar.ofBits (F := Ideal) .f32 0x00000000#32) := by
  unfold k3_pay1
  simp only [shapeCast_self]
  show max (x0 (ix2 p q) + broadcastTo S2000x256 x2 broadcasts_S2000x1_S2000x256 (ix2 p q) * x4 (ix2 p q)) _ = _
  rw [broadcastTo_a1_ab_apply]
  rfl

/-- At grid point t every window's block index is t on the row axis and 0 on the column axis (decided over the grid). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The region's output as one function of the three arrays it reads: at row r and column s, the larger of zero and
    aggregate(r, s) + scale(r, 0) * product(r, s). -/
def addRelu3 (agg : S50000x256.Idx → Elt Ideal .f32) (prod : S50000x256.Idx → Elt Ideal .f32) (scale : S50000x1.Idx → Elt Ideal .f32) :
    S50000x256.Idx → Elt Ideal .f32 := fun i =>
  FloatOps.maximumf (FloatOps.addf (agg i) (FloatOps.mulf (scale (ix2 (i 0) (0 : Fin 1))) (prod i))) (Scalar.ofBits (F := Ideal) .f32 0x00000000#32)

/-- The body's payload on three blocks that are restrictions of whole arrays along one embedding of block indices
    (the scale block restricted along the same rows, column 0) is the restriction of addRelu3 of the arrays. -/
theorem pay3_restrict (x0 : Vec Ideal S2000x256 .f32) (x2 : Vec Ideal S2000x1 .f32) (x4 : Vec Ideal S2000x256 .f32)
    (agg prod : S50000x256.Idx → Elt Ideal .f32) (scale : S50000x1.Idx → Elt Ideal .f32) (e : S2000x256.Idx → S50000x256.Idx)
    (h0 : ∀ y, x0 y = agg (e y)) (h4 : ∀ y, x4 y = prod (e y))
    (h2 : ∀ y : S2000x256.Idx, x2 (ix2 (y 0) (0 : Fin 1)) = scale (ix2 (e y 0) (0 : Fin 1))) (j : S2000x256.Idx) :
    k3_pay1 x0 x2 x4 j = addRelu3 agg prod scale (e j) := by
  obtain ⟨p, q, rfl⟩ : ∃ (p : Fin 2000) (q : Fin 256), j = ix2 p q := ⟨j 0, j 1, eq_ix2 j⟩
  rw [pay3_at, h0, h4]
  have h := h2 (ix2 p q)
  rw [show (ix2 p q : S2000x256.Idx) 0 = p from rfl] at h
  rw [h]
  rfl

/-- What grid point t writes back to the output array is block t of addRelu3 of the arrays the region reads. -/
theorem flushed3_eq (c : Dev nD) (t : Fin cfg3.N) :
    (dat3 (F := Ideal) V c).flushed 3 t
      = ((cfg3.win 3).blk t).view.read (Elt Ideal) (addRelu3 (V c main_v71) (V c main_v43) (V c main_v72)) := by
  show (cfg3.win 3).cut (grid3.coords t) ((dat3 V c).after 3 t) = _
  rw [after3_3]
  unfold out3_3
  rw [View.canon_unit_zero zero_offsets3]
  simp only [View.ld_unit_zero (S := S2000x256) zero_offsets3, View.ld_unit_zero (S := S2000x1) zero_offsets3]
  obtain ⟨e00, e01, e10, e11, e20, e21, e30, e31⟩ := idx_facts3 t
  funext j
  refine pay3_restrict (iblk3 V c 0 t) (iblk3 V c 2 t) (iblk3 V c 1 t) (V c main_v71) (V c main_v43) (V c main_v72)
    (fun y => ((cfg3.win 3).blk t).view.emb y) ?_ ?_ ?_ j
  · intro y
    show V c main_v71 (((cfg3.win 0).blk t).view.emb y) = V c main_v71 (((cfg3.win 3).blk t).view.emb y)
    refine congrArg _ (funext fun a => Fin.ext ?_)
    match a with
    | ⟨0, _⟩ => show win3_0.index t (0 : Fin 2) * 2000 + 1 * (y 0).val = win3_3.index t (0 : Fin 2) * 2000 + 1 * (y 0).val; omega
    | ⟨1, _⟩ => show win3_0.index t (1 : Fin 2) * 256 + 1 * (y 1).val = win3_3.index t (1 : Fin 2) * 256 + 1 * (y 1).val; omega
  · intro y
    show V c main_v43 (((cfg3.win 1).blk t).view.emb y) = V c main_v43 (((cfg3.win 3).blk t).view.emb y)
    refine congrArg _ (funext fun a => Fin.ext ?_)
    match a with
    | ⟨0, _⟩ => show win3_1.index t (0 : Fin 2) * 2000 + 1 * (y 0).val = win3_3.index t (0 : Fin 2) * 2000 + 1 * (y 0).val; omega
    | ⟨1, _⟩ => show win3_1.index t (1 : Fin 2) * 256 + 1 * (y 1).val = win3_3.index t (1 : Fin 2) * 256 + 1 * (y 1).val; omega
  · intro y
    show V c main_v72 (((cfg3.win 2).blk t).view.emb (ix2 (y 0) (0 : Fin 1))) = V c main_v72 (ix2 (((cfg3.win 3).blk t).view.emb y 0) (0 : Fin 1))
    refine congrArg _ (funext fun a => Fin.ext ?_)
    match a with
    | ⟨0, _⟩ => show win3_2.index t (0 : Fin 2) * 2000 + 1 * (y 0).val = win3_3.index t (0 : Fin 2) * 2000 + 1 * (y 0).val; omega
    | ⟨1, _⟩ => show win3_2.index t (1 : Fin 2) * 1 + 1 * 0 = 0; omega

/-- An index of the output array is in point t's block iff each coordinate is in the block's range on its axis. -/
theorem mem_blk3 (t : Fin cfg3.N) (i : S50000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v73).slice (win3_3.rect t)).set ↔ _
  rw [View.set_slice_whole, Rect.mem_set_unit]
  exact Iff.rfl

/-- Every index of the output array is in the block of the point its row falls in: row r is in block r / 2000. -/
theorem cover3 (i : S50000x256.Idx) : ∃ t : Fin cfg3.N, (cfg3.win 3).flush t = true ∧ i ∈ ((cfg3.win 3).blk t).view.set := by
  have hi0 : (i 0).val < 50000 := (i 0).isLt
  have hi1 : (i 1).val < 256 := (i 1).isLt
  have hN : cfg3.N = 25 := N_3
  let t : Fin cfg3.N := ⟨(i 0).val / 2000, by rw [hN]; omega⟩
  obtain ⟨e00, e01, e10, e11, e20, e21, e30, e31⟩ := idx_facts3 t
  have ht : t.val = (i 0).val / 2000 := rfl
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

/-- The output array after the region is addRelu3 of the arrays the region reads. -/
theorem addrelu3_arr (c : Dev nD) :
    (dat3 (F := Ideal) V c).arrAt 3 cfg3.N = addRelu3 (V c main_v71) (V c main_v43) (V c main_v72) :=
  (dat3 (F := Ideal) V c).arrAt_eq_of_cover 3 (addRelu3 (V c main_v71) (V c main_v43) (V c main_v72))
    (fun t _ => flushed3_eq V c t) cover3

/-- Entry (p, q) of the output array after the region. -/
theorem addrelu3_at (c : Dev nD) (p : Fin 50000) (q : Fin 256) :
    (Gen.dat3 (F := Ideal) V c).arrAt 3 cfg3.N (ix2 p q)
      = FloatOps.maximumf (FloatOps.addf (V c main_v71 (ix2 p q)) (FloatOps.mulf (V c main_v72 (ix2 p (0 : Fin 1))) (V c main_v43 (ix2 p q)))) (Scalar.ofBits (F := Ideal) .f32 0x00000000#32) :=
  congrFun (addrelu3_arr V c) (ix2 p q)

end Cert.KernelIdeal.RegionValue

end
-- ==== Proof.Host1.lean ====
/-
  The stretch of host operations between the first matrix product and the first add-and-rectify region of
  the idealized kernel, read against the reference's stages.  From the product h*W it gathers the rows of the edges'
  source nodes, scales row e by d[source e] * d[target e], and scatter-adds the scaled rows at the target nodes: the
  aggregate.  It also lays d*d out as a column.  Both are the reference's operations on the reference's operands, once
  the product is known to be the reference's product.
-/
import proofs.«121664_j30580167148117_1_alg».proof.Proof.Gen.KernelIdeal.Frame
import proofs.«121664_j30580167148117_1_alg».proof.Proof.Gen.ReferenceIdeal.Read
import proofs.«121664_j30580167148117_1_alg».proof.Proof.Carry
import proofs.«121664_j30580167148117_1_alg».proof.Proof.Fold1
import proofs.«121664_j30580167148117_1_alg».proof.Proof.LibKeepdims
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Carry
open Cert.ReferenceIdeal.Read

variable (m : (ℓ : Loc nD τ sig) → Buf (Elt Ideal) ℓ) (ρ : Dev nD → PrngReg) (c : Dev nD)

/-- The product h*W is not touched by the stretch. -/
theorem hwkeep1 : W3 m ρ c (Proc.devRef .tc main_v12) = W2 m ρ c (Proc.devRef .tc main_v12) :=
  pass_hostOps1 (W2 m ρ c) (by decide)

/-- The aggregate: the scatter-add, over the edges, of the scaled source rows of the product. -/
theorem agg1 (hhw : W2 m ρ c (Proc.devRef .tc main_v12) = val_main_v11 (F := Ideal) (m ((c.tc : Thread nD τ).loc main_arg0)) (m ((c.tc : Thread nD τ).loc main_arg4))) :
    W3 m ρ c (Proc.devRef .tc main_v40) = val_main_v39 (F := Ideal) (m ((c.tc : Thread nD τ).loc main_arg0)) (m ((c.tc : Thread nD τ).loc main_arg1)) (m ((c.tc : Thread nD τ).loc main_arg4)) := by
  show StableHlo.after hostOps1 (W2 m ρ c) (Proc.devRef .tc main_v40) = _
  after_results_simp
  rw [kept2 m ρ c main_v1 (by decide), kept2 m ρ c main_v3 (by decide), kept2 m ρ c main_v10 (by decide), hhw,
    W1_v1, W1_v3, W1_v10]
  rfl

/-- d*d laid out as a column: its entry (p, 0) is (d*d)[p]. -/
theorem col1_at (p : Fin 50000) :
    W3 m ρ c (Proc.devRef .tc main_v41) (ix2 p (0 : Fin 1)) = val_main_v40 (F := Ideal) (m ((c.tc : Thread nD τ).loc main_arg1)) (ix1 p) := by
  show StableHlo.after hostOps1 (W2 m ρ c) (Proc.devRef .tc main_v41) (ix2 p (0 : Fin 1)) = _
  after_results_simp
  rw [kept2 m ρ c main_v11 (by decide), W1_v11]
  exact shapeCast_a_a1_apply _ _ p 0

end Cert.Bridge

end
-- ==== Proof.Lin0.lean ====
/-
  Region 0: a linear layer without bias.  Each of the ten grid points takes a block of 5000 rows of the
  [50000,128] input, the whole [128,256] weight matrix, and writes the block of 5000 rows of the [50000,256]
  output that holds the matrix product of the two.  Read at the ideal values, the output array after the
  region is, entry by entry, the product of the input array and the weight matrix as the region finds them:
  entry (p, q) is the sum over k < 128 of input(p, k) * weight(k, q).
-/
import Idealize.ShloMosaic.Lib.ValueIdx
import Idealize.ShloMosaic.Lib.Pipeline.Value
import Idealize.ShloMosaic.Lib.ValueLayout
import Idealize.ShloMosaic.PureOps.Ideal.Laws
import proofs.«121664_j30580167148117_1_alg».proof.Proof.Gen.KernelIdeal.Frame
import proofs.«121664_j30580167148117_1_alg».proof.Proof.LibMatmulSum
import proofs.«121664_j30580167148117_1_alg».proof.Proof.LibPlainLists

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

/-- The body's loads and its store start at offsets (0, 0) of their buffers. -/
theorem lin0_offsets : (![0, 0] : Fin 2 → Nat) = fun _ => 0 := funext fun a => by fin_cases a <;> rfl

/-- The body's value at entry (p, q) of its block: the format changes are the identity on extended reals, and the
    product into the zero accumulator is the sum over the contracted axis of length 128. -/
theorem lin0_pay (x0 : Vec Ideal S5000x128 .f32) (x1 : Vec Ideal S128x256 .f32) (p : Fin 5000) (q : Fin 256) :
    k0_pay1 x0 x1 (ix2 p q) = ∑ k : Fin 128, x0 (ix2 p k) * x1 (ix2 k q) := by
  unfold k0_pay1
  exact Cert.LibMatmulSum.matmul_zero_at
    (Cert.LibMatmulSum.Plain.of_lists dot_S5000x128_S128x256_S5000x256_1_0_0_1_n_n rfl rfl rfl rfl rfl rfl) none _ _ p q

/-- The block indices at grid point t: the input and the output are at row block t, column block 0; the weight
    matrix is its one block (0, 0) at every point. -/
theorem lin0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of a [50000,128] array and a [128,256] matrix, entry by entry. -/
abbrev lin0_prod (a : S50000x128.Idx → EReal) (w : S128x256.Idx → EReal) : S50000x256.Idx → EReal :=
  fun i => ∑ k : Fin 128, a (ix2 (i 0 : Fin 50000) k) * w (ix2 k (i 1 : Fin 256))

/-- Entry (p, q) of the output block at point t is entry (5000 t + p, q) of the product: the input block's row p
    is the input array's row 5000 t + p, and the weight block is the weight matrix. -/
theorem lin0_block (V : (c : Dev nD) → (b : Ref sig .tc) → Buf (Elt Ideal) ((c : Thread nD τ).loc b)) (c : Dev nD)
    (t : Fin cfg0.N) (j : S5000x256.Idx) :
    k0_pay1 (iblk0 V c 0 t) (iblk0 V c 1 t) j
      = lin0_prod (V c main_arg0) (V c main_arg4) (((cfg0.win 2).blk t).view.emb j) := by
  obtain ⟨p, q, rfl⟩ : ∃ (p : Fin 5000) (q : Fin 256), j = ix2 p q := ⟨j 0, j 1, eq_ix2 j⟩
  refine (lin0_pay _ _ p q).trans ?_
  obtain ⟨e0, e1, e2, e3, e4, e5⟩ := lin0_idx t
  refine Finset.sum_congr rfl fun k _ => ?_
  have hp : p.val < 5000 := p.isLt
  have hq : q.val < 256 := q.isLt
  have hk : k.val < 128 := k.isLt
  have h0 : iblk0 V c 0 t (ix2 p k)
      = V c main_arg0 (ix2 ((((cfg0.win 2).blk t).view.emb (ix2 p q)) 0 : Fin 50000) k) := by
    show V c main_arg0 (((cfg0.win 0).blk t).view.emb (ix2 p k)) = _
    congr 1
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : iblk0 V c 1 t (ix2 k q)
      = V c main_arg4 (ix2 k ((((cfg0.win 2).blk t).view.emb (ix2 p q)) 1 : Fin 256)) := by
    show V c main_arg4 (((cfg0.win 1).blk t).view.emb (ix2 k q)) = _
    congr 1
    funext a; apply Fin.ext
    match a with
    | ⟨0, _⟩ => show win0_1.index t (0 : Fin 2) * 128 + 1 * k.val = k.val; omega
    | ⟨1, _⟩ => show win0_1.index t (1 : Fin 2) * 256 + 1 * q.val = win0_2.index t (1 : Fin 2) * 256 + 1 * q.val; omega
  rw [h0, h1]

/-- What point t writes back is block t of the product of the arrays the region finds. -/
theorem lin0_flushed (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (lin0_prod (V c main_arg0) (V c main_arg4)) := by
  show (cfg0.win 2).cut (grid0.coords t) ((dat0 (F := Ideal) V c).after 2 t) = _
  rw [after0_2]
  unfold out0_2
  rw [View.canon_unit_zero lin0_offsets]
  simp only [View.ld_unit_zero (S := S5000x128) lin0_offsets, View.ld_unit_zero (S := S128x256) lin0_offsets]
  funext j
  exact lin0_block V c t j

/-- An index of the output array is in point t's block iff each coordinate is in the block's range on its axis. -/
theorem lin0_mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v12).slice (win0_2.rect t)).set ↔ _
  rw [View.set_slice_whole, Rect.mem_set_unit]
  exact Iff.rfl

/-- Every entry of the output array is written back by some point: row r by point r / 5000. -/
theorem lin0_cover (i : S50000x256.Idx) :
    ∃ t : Fin cfg0.N, (cfg0.win 2).flush t = true ∧ i ∈ ((cfg0.win 2).blk t).view.set := by
  have hi0 : (i 0).val < 50000 := idx2_lt0 i
  have hi1 : (i 1).val < 256 := idx2_lt1 i
  have hN : grid0.N = 10 := N_0
  obtain ⟨t, ht⟩ : ∃ t : Fin cfg0.N, t.val = (i 0).val / 5000 :=
    ⟨⟨(i 0).val / 5000, by show (i 0).val / 5000 < grid0.N; rw [hN]; omega⟩, rfl⟩
  obtain ⟨-, -, -, -, e4, e5⟩ := lin0_idx t
  refine ⟨t, flush0_2 t, ?_⟩
  rw [lin0_mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- The output array after the region is the product of the input array and the weight matrix. -/
theorem lin0_arr (V : (c : Dev nD) → (b : Ref sig .tc) → Buf (Elt Ideal) ((c : Thread nD τ).loc b)) (c : Dev nD) :
    (dat0 (F := Ideal) V c).arrAt 2 cfg0.N = lin0_prod (V c main_arg0) (V c main_arg4) :=
  (dat0 (F := Ideal) V c).arrAt_eq_of_cover 2 (lin0_prod (V c main_arg0) (V c main_arg4))
    (fun t _ => lin0_flushed V c t) lin0_cover

/-- Entry (p, q) of the output array after the region. -/
theorem lin0_at (V : (c : Dev nD) → (b : Ref sig .tc) → Buf (Elt Ideal) ((c : Thread nD τ).loc b)) (c : Dev nD)
    (p : Fin 50000) (q : Fin 256) :
    (dat0 (F := Ideal) V c).arrAt 2 cfg0.N (ix2 p q)
      = ∑ k : Fin 128, @HMul.hMul EReal EReal EReal _ (V c main_arg0 (ix2 p k)) (V c main_arg4 (ix2 k q)) :=
  congrFun (lin0_arr V c) (ix2 p q)

end Cert.KernelIdeal.RegionValue

end
-- ==== Proof.AddRelu1.lean ====
/-
  The add-and-relu region whose output is main_v42: after the region, entry (r, s) of the output array is
  max(aggregate(r, s) + scale(r, 0) * product(r, s), 0), for the aggregate (main_v40), product (main_v12) and scale-column
  (main_v41) arrays the region reads.  The body computes that on one block of 2000 rows; every window's block at a grid
  point is the same row block (column block 0), the 25 row blocks tile the 50000 rows, and row r lies in block r / 2000.
-/
import Idealize.ShloMosaic.Lib.ValueIdx
import Idealize.ShloMosaic.Lib.Pipeline.Value
import Idealize.ShloMosaic.Lib.ValueLayout
import Idealize.ShloMosaic.PureOps.Ideal.Laws
import proofs.«121664_j30580167148117_1_alg».proof.Proof.Gen.KernelIdeal.Frame
import proofs.«121664_j30580167148117_1_alg».proof.Proof.LibKeepdims

noncomputable section

namespace Cert.KernelIdeal.RegionValue

open Idealize.ShloMosaic Idealize.ShloMosaic.ValueIdx Idealize.SL.Sem Cert.KernelIdeal Cert.KernelIdeal.Gen
open Idealize.ShloMosaic.TcCoe
open Idealize.ShloMosaic.Pipeline (Dat)

/-- The zero offsets of a whole-block access, as the constant function. -/
theorem zero_offsets1 : (![0, 0] : Fin 2 → Nat) = fun _ => 0 := funext fun a => by fin_cases a <;> rfl

/-- The body's payload at row p, column q of its block: the scale column's entry of row p times the product block's
    entry, added to the aggregate block's entry, and the larger of that and zero. -/
theorem pay1_at (x0 : Vec Ideal S2000x256 .f32) (x2 : Vec Ideal S2000x1 .f32) (x4 : Vec Ideal S2000x256 .f32) (p : Fin 2000) (q : Fin 256) :
    k1_pay1 x0 x2 x4 (ix2 p q)
      = FloatOps.maximumf (FloatOps.addf (x0 (ix2 p q)) (FloatOps.mulf (x2 (ix2 p (0 : Fin 1))) (x4 (ix2 p q)))) (Scalar.ofBits (F := Ideal) .f32 0x00000000#32) := by
  unfold k1_pay1
  simp only [shapeCast_self]
  show max (x0 (ix2 p q) + broadcastTo S2000x256 x2 broadcasts_S2000x1_S2000x256 (ix2 p q) * x4 (ix2 p q)) _ = _
  rw [broadcastTo_a1_ab_apply]
  rfl

/-- At grid point t every window's block index is t on the row axis and 0 on the column axis (decided over the grid). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The region's output as one function of the three arrays it reads: at row r and column s, the larger of zero and
    aggregate(r, s) + scale(r, 0) * product(r, s). -/
def addRelu1 (agg : S50000x256.Idx → Elt Ideal .f32) (prod : S50000x256.Idx → Elt Ideal .f32) (scale : S50000x1.Idx → Elt Ideal .f32) :
    S50000x256.Idx → Elt Ideal .f32 := fun i =>
  FloatOps.maximumf (FloatOps.addf (agg i) (FloatOps.mulf (scale (ix2 (i 0) (0 : Fin 1))) (prod i))) (Scalar.ofBits (F := Ideal) .f32 0x00000000#32)

/-- The body's payload on three blocks that are restrictions of whole arrays along one embedding of block indices
    (the scale block restricted along the same rows, column 0) is the restriction of addRelu1 of the arrays. -/
theorem pay1_restrict (x0 : Vec Ideal S2000x256 .f32) (x2 : Vec Ideal S2000x1 .f32) (x4 : Vec Ideal S2000x256 .f32)
    (agg prod : S50000x256.Idx → Elt Ideal .f32) (scale : S50000x1.Idx → Elt Ideal .f32) (e : S2000x256.Idx → S50000x256.Idx)
    (h0 : ∀ y, x0 y = agg (e y)) (h4 : ∀ y, x4 y = prod (e y))
    (h2 : ∀ y : S2000x256.Idx, x2 (ix2 (y 0) (0 : Fin 1)) = scale (ix2 (e y 0) (0 : Fin 1))) (j : S2000x256.Idx) :
    k1_pay1 x0 x2 x4 j = addRelu1 agg prod scale (e j) := by
  obtain ⟨p, q, rfl⟩ : ∃ (p : Fin 2000) (q : Fin 256), j = ix2 p q := ⟨j 0, j 1, eq_ix2 j⟩
  rw [pay1_at, h0, h4]
  have h := h2 (ix2 p q)
  rw [show (ix2 p q : S2000x256.Idx) 0 = p from rfl] at h
  rw [h]
  rfl

/-- What grid point t writes back to the output array is block t of addRelu1 of the arrays the region reads. -/
theorem flushed1_eq (c : Dev nD) (t : Fin cfg1.N) :
    (dat1 (F := Ideal) V c).flushed 3 t
      = ((cfg1.win 3).blk t).view.read (Elt Ideal) (addRelu1 (V c main_v40) (V c main_v12) (V c main_v41)) := by
  show (cfg1.win 3).cut (grid1.coords t) ((dat1 V c).after 3 t) = _
  rw [after1_3]
  unfold out1_3
  rw [View.canon_unit_zero zero_offsets1]
  simp only [View.ld_unit_zero (S := S2000x256) zero_offsets1, View.ld_unit_zero (S := S2000x1) zero_offsets1]
  obtain ⟨e00, e01, e10, e11, e20, e21, e30, e31⟩ := idx_facts1 t
  funext j
  refine pay1_restrict (iblk1 V c 0 t) (iblk1 V c 2 t) (iblk1 V c 1 t) (V c main_v40) (V c main_v12) (V c main_v41)
    (fun y => ((cfg1.win 3).blk t).view.emb y) ?_ ?_ ?_ j
  · intro y
    show V c main_v40 (((cfg1.win 0).blk t).view.emb y) = V c main_v40 (((cfg1.win 3).blk t).view.emb y)
    refine congrArg _ (funext fun a => Fin.ext ?_)
    match a with
    | ⟨0, _⟩ => show win1_0.index t (0 : Fin 2) * 2000 + 1 * (y 0).val = win1_3.index t (0 : Fin 2) * 2000 + 1 * (y 0).val; omega
    | ⟨1, _⟩ => show win1_0.index t (1 : Fin 2) * 256 + 1 * (y 1).val = win1_3.index t (1 : Fin 2) * 256 + 1 * (y 1).val; omega
  · intro y
    show V c main_v12 (((cfg1.win 1).blk t).view.emb y) = V c main_v12 (((cfg1.win 3).blk t).view.emb y)
    refine congrArg _ (funext fun a => Fin.ext ?_)
    match a with
    | ⟨0, _⟩ => show win1_1.index t (0 : Fin 2) * 2000 + 1 * (y 0).val = win1_3.index t (0 : Fin 2) * 2000 + 1 * (y 0).val; omega
    | ⟨1, _⟩ => show win1_1.index t (1 : Fin 2) * 256 + 1 * (y 1).val = win1_3.index t (1 : Fin 2) * 256 + 1 * (y 1).val; omega
  · intro y
    show V c main_v41 (((cfg1.win 2).blk t).view.emb (ix2 (y 0) (0 : Fin 1))) = V c main_v41 (ix2 (((cfg1.win 3).blk t).view.emb y 0) (0 : Fin 1))
    refine congrArg _ (funext fun a => Fin.ext ?_)
    match a with
    | ⟨0, _⟩ => show win1_2.index t (0 : Fin 2) * 2000 + 1 * (y 0).val = win1_3.index t (0 : Fin 2) * 2000 + 1 * (y 0).val; omega
    | ⟨1, _⟩ => show win1_2.index t (1 : Fin 2) * 1 + 1 * 0 = 0; omega

/-- An index of the output array is in point t's block iff each coordinate is in the block's range on its axis. -/
theorem mem_blk1 (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v42).slice (win1_3.rect t)).set ↔ _
  rw [View.set_slice_whole, Rect.mem_set_unit]
  exact Iff.rfl

/-- Every index of the output array is in the block of the point its row falls in: row r is in block r / 2000. -/
theorem cover1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨e00, e01, e10, e11, e20, e21, e30, e31⟩ := idx_facts1 t
  have ht : t.val = (i 0).val / 2000 := rfl
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- The output array after the region is addRelu1 of the arrays the region reads. -/
theorem addrelu1_arr (c : Dev nD) :
    (dat1 (F := Ideal) V c).arrAt 3 cfg1.N = addRelu1 (V c main_v40) (V c main_v12) (V c main_v41) :=
  (dat1 (F := Ideal) V c).arrAt_eq_of_cover 3 (addRelu1 (V c main_v40) (V c main_v12) (V c main_v41))
    (fun t _ => flushed1_eq V c t) cover1

/-- Entry (p, q) of the output array after the region. -/
theorem addrelu1_at (c : Dev nD) (p : Fin 50000) (q : Fin 256) :
    (Gen.dat1 (F := Ideal) V c).arrAt 3 cfg1.N (ix2 p q)
      = FloatOps.maximumf (FloatOps.addf (V c main_v40 (ix2 p q)) (FloatOps.mulf (V c main_v41 (ix2 p (0 : Fin 1))) (V c main_v12 (ix2 p q)))) (Scalar.ofBits (F := Ideal) .f32 0x00000000#32) :=
  congrFun (addrelu1_arr V c) (ix2 p q)

end Cert.KernelIdeal.RegionValue

end
-- ==== Proof.Layer1.lean ====
/-
  The first graph-convolution layer of the idealized kernel against the reference's.  The matrix-product region
  leaves h*W: entry (p, q) is the sum over k of h(p, k) * W(k, q), which is the reference's contraction of the same two
  arrays.  After the aggregation on the host, the add-and-rectify region leaves max(agg + (d*d)[p] * (h*W)(p, q), 0) at
  (p, q), the reference's sum and rectifier entry by entry (the reference repeats d*d along the columns, the kernel
  reads it from a column; both read (d*d)[p]).
-/
import proofs.«121664_j30580167148117_1_alg».proof.Proof.Gen.KernelIdeal.Frame
import proofs.«121664_j30580167148117_1_alg».proof.Proof.Gen.ReferenceIdeal.Read
import proofs.«121664_j30580167148117_1_alg».proof.Proof.Carry
import proofs.«121664_j30580167148117_1_alg».proof.Proof.Fold1
import proofs.«121664_j30580167148117_1_alg».proof.Proof.Host1
import proofs.«121664_j30580167148117_1_alg».proof.Proof.Lin0
import proofs.«121664_j30580167148117_1_alg».proof.Proof.AddRelu1
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Carry
open Cert.ReferenceIdeal.Read

variable (m : (ℓ : Loc nD τ sig) → Buf (Elt Ideal) ℓ) (ρ : Dev nD → PrngReg) (c : Dev nD)

/-- The product region's output array is the reference's product. -/
theorem hw1 : W2 m ρ c (Proc.devRef .tc main_v12) = val_main_v11 (F := Ideal) (m ((c.tc : Thread nD τ).loc main_arg0)) (m ((c.tc : Thread nD τ).loc main_arg4)) := by
  refine (W2_arr m ρ c 2).trans ?_
  funext i
  obtain ⟨p, q, rfl⟩ : ∃ (p : Fin 50000) (q : Fin 256), i = ix2 p q := ⟨i 0, i 1, eq_ix2 i⟩
  refine (Cert.KernelIdeal.RegionValue.lin0_at (V1 m ρ) c p q).trans ?_
  rw [val_main_v11_apply]
  show ∑ k : Fin 128, HMul.hMul (α := EReal) (β := EReal) (W1 m ρ c (Proc.devRef .tc main_arg0) (ix2 p k)) (W1 m ρ c (Proc.devRef .tc main_arg4) (ix2 k q)) = _
  rw [W1_arg0 m ρ c, W1_arg4 m ρ c]
  refine Finset.sum_congr rfl fun k _ => ?_
  congr 2 <;> (funext a; apply Fin.ext; match a with | ⟨0, _⟩ => rfl | ⟨1, _⟩ => rfl)

/-- The add-and-rectify region's output array is the reference's rectified layer output. -/
theorem out1 : W4 m ρ c (Proc.devRef .tc main_v42) = val_main_v45 (F := Ideal) (m ((c.tc : Thread nD τ).loc main_arg0)) (m ((c.tc : Thread nD τ).loc main_arg1)) (m ((c.tc : Thread nD τ).loc main_arg4)) := by
  refine (W4_arr m ρ c 3).trans ?_
  funext i
  obtain ⟨p, q, rfl⟩ : ∃ (p : Fin 50000) (q : Fin 256), i = ix2 p q := ⟨i 0, i 1, eq_ix2 i⟩
  refine (Cert.KernelIdeal.RegionValue.addrelu1_at (V3 m ρ) c p q).trans ?_
  show FloatOps.maximumf (FloatOps.addf (W3 m ρ c (Proc.devRef .tc main_v40) (ix2 p q))
      (FloatOps.mulf (W3 m ρ c (Proc.devRef .tc main_v41) (ix2 p (0 : Fin 1))) (W3 m ρ c (Proc.devRef .tc main_v12) (ix2 p q))))
      (Scalar.ofBits (F := Ideal) .f32 0x00000000#32) = _
  rw [agg1 m ρ c (hw1 m ρ c), col1_at, hwkeep1, hw1]
  rw [val_main_v45_apply, val_main_v44_apply, val_main_v43_apply, val_main_v42_apply, val_main_v41_apply, val_main_call0_v0_apply, val_main_call0_cst_apply]
  have e : idx_main_v41 (idx_main_v42 (ix2 p q)) = ix1 p := funext fun a => Fin.ext (by match a with | ⟨0, _⟩ => rfl)
  rw [e]

end Cert.Bridge

end
-- ==== Proof.Layer2.lean ====
/-
  The second graph-convolution layer of the idealized kernel against the reference's.  The matrix-product region
  leaves h*W: entry (p, q) is the sum over k of h(p, k) * W(k, q), which is the reference's contraction of the same two
  arrays.  After the aggregation on the host, the add-and-rectify region leaves max(agg + (d*d)[p] * (h*W)(p, q), 0) at
  (p, q), the reference's sum and rectifier entry by entry (the reference repeats d*d along the columns, the kernel
  reads it from a column; both read (d*d)[p]).
-/
import proofs.«121664_j30580167148117_1_alg».proof.Proof.Gen.KernelIdeal.Frame
import proofs.«121664_j30580167148117_1_alg».proof.Proof.Gen.ReferenceIdeal.Read
import proofs.«121664_j30580167148117_1_alg».proof.Proof.Carry
import proofs.«121664_j30580167148117_1_alg».proof.Proof.Fold1
import proofs.«121664_j30580167148117_1_alg».proof.Proof.Host2
import proofs.«121664_j30580167148117_1_alg».proof.Proof.Lin2
import proofs.«121664_j30580167148117_1_alg».proof.Proof.AddRelu3
import proofs.«121664_j30580167148117_1_alg».proof.Proof.Layer1
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Carry
open Cert.ReferenceIdeal.Read

variable (m : (ℓ : Loc nD τ sig) → Buf (Elt Ideal) ℓ) (ρ : Dev nD → PrngReg) (c : Dev nD)

/-- The product region's output array is the reference's product. -/
theorem hw2 : W5 m ρ c (Proc.devRef .tc main_v43) = val_main_v46 (F := Ideal) (m ((c.tc : Thread nD τ).loc main_arg0)) (m ((c.tc : Thread nD τ).loc main_arg1)) (m ((c.tc : Thread nD τ).loc main_arg4)) (m ((c.tc : Thread nD τ).loc main_arg5)) := by
  refine (W5_arr m ρ c 2).trans ?_
  funext i
  obtain ⟨p, q, rfl⟩ : ∃ (p : Fin 50000) (q : Fin 256), i = ix2 p q := ⟨i 0, i 1, eq_ix2 i⟩
  refine (Cert.KernelIdeal.RegionValue.lin2_at (V4 m ρ) c p q).trans ?_
  rw [val_main_v46_apply]
  show ∑ k : Fin 256, HMul.hMul (α := EReal) (β := EReal) (W4 m ρ c (Proc.devRef .tc main_v42) (ix2 p k)) (W4 m ρ c (Proc.devRef .tc main_arg5) (ix2 k q)) = _
  rw [out1 m ρ c, (W4_arg5 m ρ c).trans (W1_arg5 m ρ c)]
  refine Finset.sum_congr rfl fun k _ => ?_
  congr 2 <;> (funext a; apply Fin.ext; match a with | ⟨0, _⟩ => rfl | ⟨1, _⟩ => rfl)

/-- The add-and-rectify region's output array is the reference's rectified layer output. -/
theorem out2 : W7 m ρ c (Proc.devRef .tc main_v73) = val_main_v80 (F := Ideal) (m ((c.tc : Thread nD τ).loc main_arg0)) (m ((c.tc : Thread nD τ).loc main_arg1)) (m ((c.tc : Thread nD τ).loc main_arg4)) (m ((c.tc : Thread nD τ).loc main_arg5)) := by
  refine (W7_arr m ρ c 3).trans ?_
  funext i
  obtain ⟨p, q, rfl⟩ : ∃ (p : Fin 50000) (q : Fin 256), i = ix2 p q := ⟨i 0, i 1, eq_ix2 i⟩
  refine (Cert.KernelIdeal.RegionValue.addrelu3_at (V6 m ρ) c p q).trans ?_
  show FloatOps.maximumf (FloatOps.addf (W6 m ρ c (Proc.devRef .tc main_v71) (ix2 p q))
      (FloatOps.mulf (W6 m ρ c (Proc.devRef .tc main_v72) (ix2 p (0 : Fin 1))) (W6 m ρ c (Proc.devRef .tc main_v43) (ix2 p q))))
      (Scalar.ofBits (F := Ideal) .f32 0x00000000#32) = _
  rw [agg2 m ρ c (hw2 m ρ c), col2_at, hwkeep2, hw2]
  rw [val_main_v80_apply, val_main_v79_apply, val_main_v78_apply, val_main_v77_apply, val_main_v76_apply, val_main_call1_v0_apply, val_main_call1_cst_apply]
  have e : idx_main_v76 (idx_main_v77 (ix2 p q)) = ix1 p := funext fun a => Fin.ext (by match a with | ⟨0, _⟩ => rfl)
  rw [e]

end Cert.Bridge

end
-- ==== Proof.Layer3.lean ====
/-
  The third graph-convolution layer of the idealized kernel against the reference's.  The matrix-product region
  leaves h*W: entry (p, q) is the sum over k of h(p, k) * W(k, q), which is the reference's contraction of the same two
  arrays.  After the aggregation on the host, the add-and-rectify region leaves max(agg + (d*d)[p] * (h*W)(p, q), 0) at
  (p, q), the reference's sum and rectifier entry by entry (the reference repeats d*d along the columns, the kernel
  reads it from a column; both read (d*d)[p]).
-/
import proofs.«121664_j30580167148117_1_alg».proof.Proof.Gen.KernelIdeal.Frame
import proofs.«121664_j30580167148117_1_alg».proof.Proof.Gen.ReferenceIdeal.Read
import proofs.«121664_j30580167148117_1_alg».proof.Proof.Carry
import proofs.«121664_j30580167148117_1_alg».proof.Proof.Fold1
import proofs.«121664_j30580167148117_1_alg».proof.Proof.Host3
import proofs.«121664_j30580167148117_1_alg».proof.Proof.Lin4
import proofs.«121664_j30580167148117_1_alg».proof.Proof.AddRelu5
import proofs.«121664_j30580167148117_1_alg».proof.Proof.Layer2
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Carry
open Cert.ReferenceIdeal.Read

variable (m : (ℓ : Loc nD τ sig) → Buf (Elt Ideal) ℓ) (ρ : Dev nD → PrngReg) (c : Dev nD)

/-- The product region's output array is the reference's product. -/
theorem hw3 : W8 m ρ c (Proc.devRef .tc main_v74) = val_main_v81 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  refine (W8_arr m ρ c 2).trans ?_
  funext i
  obtain ⟨p, q, rfl⟩ : ∃ (p : Fin 50000) (q : Fin 256), i = ix2 p q := ⟨i 0, i 1, eq_ix2 i⟩
  refine (Cert.KernelIdeal.RegionValue.lin4_at (V7 m ρ) c p q).trans ?_
  rw [val_main_v81_apply]
  show ∑ k : Fin 256, HMul.hMul (α := EReal) (β := EReal) (W7 m ρ c (Proc.devRef .tc main_v73) (ix2 p k)) (W7 m ρ c (Proc.devRef .tc main_arg6) (ix2 k q)) = _
  rw [out2 m ρ c, (W7_arg6 m ρ c).trans (W1_arg6 m ρ c)]
  refine Finset.sum_congr rfl fun k _ => ?_
  congr 2 <;> (funext a; apply Fin.ext; match a with | ⟨0, _⟩ => rfl | ⟨1, _⟩ => rfl)

/-- The add-and-rectify region's output array is the reference's rectified layer output. -/
theorem out3 : W10 m ρ c (Proc.devRef .tc main_v104) = val_main_v115 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  refine (W10_arr m ρ c 3).trans ?_
  funext i
  obtain ⟨p, q, rfl⟩ : ∃ (p : Fin 50000) (q : Fin 256), i = ix2 p q := ⟨i 0, i 1, eq_ix2 i⟩
  refine (Cert.KernelIdeal.RegionValue.addrelu5_at (V9 m ρ) c p q).trans ?_
  show FloatOps.maximumf (FloatOps.addf (W9 m ρ c (Proc.devRef .tc main_v102) (ix2 p q))
      (FloatOps.mulf (W9 m ρ c (Proc.devRef .tc main_v103) (ix2 p (0 : Fin 1))) (W9 m ρ c (Proc.devRef .tc main_v74) (ix2 p q))))
      (Scalar.ofBits (F := Ideal) .f32 0x00000000#32) = _
  rw [agg3 m ρ c (hw3 m ρ c), col3_at, hwkeep3, hw3]
  rw [val_main_v115_apply, val_main_v114_apply, val_main_v113_apply, val_main_v112_apply, val_main_v111_apply, val_main_call2_v0_apply, val_main_call2_cst_apply]
  have e : idx_main_v111 (idx_main_v112 (ix2 p q)) = ix1 p := funext fun a => Fin.ext (by match a with | ⟨0, _⟩ => rfl)
  rw [e]

end Cert.Bridge

end
-- ==== Proof.Mlp6.lean ====
/-
  The two-layer head region whose output is main_v119: after the region, entry (r, s) of the output array is
  (∑ j, max((∑ k, x(r, k) * W1(k, j)) + b1(0, j), 0) * W2(j, s)) + b2(0, s)
  for the input x (main_v116, 128 x 256), the weights W1 (main_arg7, 256 x 256) and W2 (main_arg9, 256 x 10) and the bias
  rows b1 (main_v117, 1 x 256) and b2 (main_v118, 1 x 10).  Each matrix product is accumulated from zero, so it is the plain
  sum over the contraction index; a bias row is repeated down the rows; narrowing to a shorter float format is the
  identity on extended reals.  The grid has one point and every window's block is its whole array.
-/
import Idealize.ShloMosaic.Lib.ValueIdx
import Idealize.ShloMosaic.Lib.Pipeline.Value
import Idealize.ShloMosaic.Lib.ValueLayout
import Idealize.ShloMosaic.PureOps.Ideal.Laws
import proofs.«121664_j30580167148117_1_alg».proof.Proof.Gen.KernelIdeal.Frame
import proofs.«121664_j30580167148117_1_alg».proof.Proof.LibMatmulSum
import proofs.«121664_j30580167148117_1_alg».proof.Proof.LibPlainLists

noncomputable section

namespace Cert.KernelIdeal.RegionValue

open Idealize.ShloMosaic Idealize.ShloMosaic.ValueIdx Idealize.SL.Sem Cert.KernelIdeal Cert.KernelIdeal.Gen
open Idealize.ShloMosaic.TcCoe
open Idealize.ShloMosaic.Pipeline (Dat)

/-- The zero offsets of a whole-block access, as the constant function. -/
theorem zero_offsets6 : (![0, 0] : Fin 2 → Nat) = fun _ => 0 := funext fun a => by fin_cases a <;> rfl

/-- The first product is a plain [128,256] x [256,256] product. -/
theorem plain6_hidden : Cert.LibMatmulSum.Plain dot_S128x256_S256x256_S128x256_1_0_0_1_n_n :=
  Cert.LibMatmulSum.Plain.of_lists _ rfl rfl rfl rfl rfl rfl

/-- The second product is a plain [128,256] x [256,10] product. -/
theorem plain6_out : Cert.LibMatmulSum.Plain dot_S128x256_S256x10_S128x10_1_0_0_1_n_n :=
  Cert.LibMatmulSum.Plain.of_lists _ rfl rfl rfl rfl rfl rfl

/-- The body's payload at row p, column q: the second product of the rectified first layer, plus the second bias row. -/
theorem pay6_at (x : Vec Ideal S128x256 .f32) (w1 : Vec Ideal S256x256 .f32) (b1 : Vec Ideal S1x256 .f32)
    (w2 : Vec Ideal S256x10 .f32) (b2 : Vec Ideal S1x10 .f32) (p : Fin 128) (q : Fin 10) :
    k6_pay1 x w1 b1 w2 b2 (ix2 p q)
      = FloatOps.addf (∑ j : Fin 256, (FloatOps.maximumf (FloatOps.addf (∑ k : Fin 256, x (ix2 p k) * w1 (ix2 k j)) (b1 (ix2 (0 : Fin 1) j))) (Scalar.ofBits (F := Ideal) .f32 0x00000000#32)) * w2 (ix2 j q)) (b2 (ix2 (0 : Fin 1) q)) := by
  unfold k6_pay1
  simp only [shapeCast_self, matmul]
  rw [addf_apply, broadcastTo_1b_ab_apply, Cert.LibMatmulSum.matmul_zero_at plain6_out]
  refine congrArg (· + b2 (ix2 (0 : Fin 1) q)) (Finset.sum_congr rfl fun j _ => ?_)
  refine congrArg (· * w2 (ix2 j q)) ?_
  rw [truncf_apply, maximumf_apply, addf_apply, broadcast_apply, Cert.LibMatmulSum.matmul_zero_at plain6_hidden, broadcastTo_1b_ab_apply]
  rfl

variable (V : (c : Dev nD) → (b : Ref sig .tc) → Buf (Elt Ideal) ((c : Thread nD τ).loc b))

/-- The region's output as one function of the five arrays it reads: at row r and column s,
    (∑ j, max((∑ k, x(r, k) * W1(k, j)) + b1(0, j), 0) * W2(j, s)) + b2(0, s). -/
def mlpHead (x : S128x256.Idx → Elt Ideal .f32) (w1 : S256x256.Idx → Elt Ideal .f32) (b1 : S1x256.Idx → Elt Ideal .f32)
    (w2 : S256x10.Idx → Elt Ideal .f32) (b2 : S1x10.Idx → Elt Ideal .f32) : S128x10.Idx → Elt Ideal .f32 := fun i =>
  FloatOps.addf (∑ j : Fin 256, (FloatOps.maximumf (FloatOps.addf (∑ k : Fin 256, x (ix2 (i 0) k) * w1 (ix2 k j)) (b1 (ix2 (0 : Fin 1) j))) (Scalar.ofBits (F := Ideal) .f32 0x00000000#32)) * w2 (ix2 j (i 1))) (b2 (ix2 (0 : Fin 1) (i 1)))

/-- The body's payload on five blocks that are their whole arrays, read at a block index that is its own place in the
    output array, is mlpHead of the arrays there. -/
theorem pay6_whole (x : Vec Ideal S128x256 .f32) (w1 : Vec Ideal S256x256 .f32) (b1 : Vec Ideal S1x256 .f32)
    (w2 : Vec Ideal S256x10 .f32) (b2 : Vec Ideal S1x10 .f32)
    (ax : S128x256.Idx → Elt Ideal .f32) (aw1 : S256x256.Idx → Elt Ideal .f32) (ab1 : S1x256.Idx → Elt Ideal .f32)
    (aw2 : S256x10.Idx → Elt Ideal .f32) (ab2 : S1x10.Idx → Elt Ideal .f32) (e : S128x10.Idx → S128x10.Idx)
    (hx : ∀ y, x y = ax y) (hw1 : ∀ y, w1 y = aw1 y) (hb1 : ∀ y, b1 y = ab1 y) (hw2 : ∀ y, w2 y = aw2 y) (hb2 : ∀ y, b2 y = ab2 y)
    (he : ∀ y, e y = y) (j : S128x10.Idx) :
    k6_pay1 x w1 b1 w2 b2 j = mlpHead ax aw1 ab1 aw2 ab2 (e j) := by
  obtain rfl : x = ax := funext hx
  obtain rfl : w1 = aw1 := funext hw1
  obtain rfl : b1 = ab1 := funext hb1
  obtain rfl : w2 = aw2 := funext hw2
  obtain rfl : b2 = ab2 := funext hb2
  rw [he]
  obtain ⟨p, q, rfl⟩ : ∃ (p : Fin 128) (q : Fin 10), j = ix2 p q := ⟨j 0, j 1, eq_ix2 j⟩
  exact pay6_at x w1 b1 w2 b2 p q

/-- Every window's block index at the one grid point is zero on both axes (decided over the grid). -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- What the grid point writes back to the output array is (the one block of) mlpHead of the arrays the region reads. -/
theorem flushed6_eq (c : Dev nD) (t : Fin cfg6.N) :
    (dat6 (F := Ideal) V c).flushed 5 t
      = ((cfg6.win 5).blk t).view.read (Elt Ideal) (mlpHead (V c main_v116) (V c main_arg7) (V c main_v117) (V c main_arg9) (V c main_v118)) := by
  show (cfg6.win 5).cut (grid6.coords t) ((dat6 V c).after 5 t) = _
  rw [after6_5]
  unfold out6_5
  rw [View.canon_unit_zero zero_offsets6]
  simp only [View.ld_unit_zero (S := S128x256) zero_offsets6, View.ld_unit_zero (S := S256x256) zero_offsets6,
    View.ld_unit_zero (S := S1x256) zero_offsets6, View.ld_unit_zero (S := S256x10) zero_offsets6,
    View.ld_unit_zero (S := S1x10) zero_offsets6]
  obtain ⟨e00, e01, e10, e11, e20, e21, e30, e31, e40, e41, e50, e51⟩ := idx_facts6 t
  funext j
  refine pay6_whole (iblk6 V c 0 t) (iblk6 V c 1 t) (iblk6 V c 2 t) (iblk6 V c 3 t) (iblk6 V c 4 t)
    (V c main_v116) (V c main_arg7) (V c main_v117) (V c main_arg9) (V c main_v118)
    (fun y => ((cfg6.win 5).blk t).view.emb y) ?_ ?_ ?_ ?_ ?_ ?_ j
  · intro y
    show V c main_v116 (((cfg6.win 0).blk t).view.emb y) = V c main_v116 y
    refine congrArg _ (funext fun a => Fin.ext ?_)
    match a with
    | ⟨0, _⟩ => show win6_0.index t (0 : Fin 2) * 128 + 1 * (y 0).val = (y 0).val; omega
    | ⟨1, _⟩ => show win6_0.index t (1 : Fin 2) * 256 + 1 * (y 1).val = (y 1).val; omega
  · intro y
    show V c main_arg7 (((cfg6.win 1).blk t).view.emb y) = V c main_arg7 y
    refine congrArg _ (funext fun a => Fin.ext ?_)
    match a with
    | ⟨0, _⟩ => show win6_1.index t (0 : Fin 2) * 256 + 1 * (y 0).val = (y 0).val; omega
    | ⟨1, _⟩ => show win6_1.index t (1 : Fin 2) * 256 + 1 * (y 1).val = (y 1).val; omega
  · intro y
    show V c main_v117 (((cfg6.win 2).blk t).view.emb y) = V c main_v117 y
    refine congrArg _ (funext fun a => Fin.ext ?_)
    match a with
    | ⟨0, _⟩ => show win6_2.index t (0 : Fin 2) * 1 + 1 * (y 0).val = (y 0).val; omega
    | ⟨1, _⟩ => show win6_2.index t (1 : Fin 2) * 256 + 1 * (y 1).val = (y 1).val; omega
  · intro y
    show V c main_arg9 (((cfg6.win 3).blk t).view.emb y) = V c main_arg9 y
    refine congrArg _ (funext fun a => Fin.ext ?_)
    match a with
    | ⟨0, _⟩ => show win6_3.index t (0 : Fin 2) * 256 + 1 * (y 0).val = (y 0).val; omega
    | ⟨1, _⟩ => show win6_3.index t (1 : Fin 2) * 10 + 1 * (y 1).val = (y 1).val; omega
  · intro y
    show V c main_v118 (((cfg6.win 4).blk t).view.emb y) = V c main_v118 y
    refine congrArg _ (funext fun a => Fin.ext ?_)
    match a with
    | ⟨0, _⟩ => show win6_4.index t (0 : Fin 2) * 1 + 1 * (y 0).val = (y 0).val; omega
    | ⟨1, _⟩ => show win6_4.index t (1 : Fin 2) * 10 + 1 * (y 1).val = (y 1).val; omega
  · intro y
    refine funext fun a => Fin.ext ?_
    match a with
    | ⟨0, _⟩ => show win6_5.index t (0 : Fin 2) * 128 + 1 * (y 0).val = (y 0).val; omega
    | ⟨1, _⟩ => show win6_5.index t (1 : Fin 2) * 10 + 1 * (y 1).val = (y 1).val; omega

/-- An index of the output array is in the point's block iff each coordinate is in the block's range on its axis. -/
theorem mem_blk6 (t : Fin cfg6.N) (i : S128x10.Idx) :
    i ∈ ((cfg6.win 5).blk t).view.set ↔ ∀ a : Fin 2, win6_5.index t a * S128x10.size a ≤ (i a).val ∧ (i a).val < win6_5.index t a * S128x10.size a + S128x10.size a := by
  show i ∈ ((View.whole main_v119).slice (win6_5.rect t)).set ↔ _
  rw [View.set_slice_whole, Rect.mem_set_unit]
  exact Iff.rfl

/-- Every index of the output array is in the one point's block, which is the whole array. -/
theorem cover6 (i : S128x10.Idx) : ∃ t : Fin cfg6.N, (cfg6.win 5).flush t = true ∧ i ∈ ((cfg6.win 5).blk t).view.set := by
  have hi0 : (i 0).val < 128 := (i 0).isLt
  have hi1 : (i 1).val < 10 := (i 1).isLt
  obtain ⟨e00, e01, e10, e11, e20, e21, e30, e31, e40, e41, e50, e51⟩ := idx_facts6 t6_0
  refine ⟨t6_0, flush6_5 t6_0, ?_⟩
  rw [mem_blk6]
  intro a
  match a with
  | ⟨0, _⟩ => show win6_5.index t6_0 (0 : Fin 2) * 128 ≤ (i 0).val ∧ (i 0).val < win6_5.index t6_0 (0 : Fin 2) * 128 + 128; omega
  | ⟨1, _⟩ => show win6_5.index t6_0 (1 : Fin 2) * 10 ≤ (i 1).val ∧ (i 1).val < win6_5.index t6_0 (1 : Fin 2) * 10 + 10; omega

/-- The output array after the region is mlpHead of the arrays the region reads. -/
theorem mlp6_arr (c : Dev nD) :
    (dat6 (F := Ideal) V c).arrAt 5 cfg6.N = mlpHead (V c main_v116) (V c main_arg7) (V c main_v117) (V c main_arg9) (V c main_v118) :=
  (dat6 (F := Ideal) V c).arrAt_eq_of_cover 5 (mlpHead (V c main_v116) (V c main_arg7) (V c main_v117) (V c main_arg9) (V c main_v118))
    (fun t _ => flushed6_eq V c t) cover6

/-- Entry (p, q) of the output array after the region. -/
theorem mlp6_at (c : Dev nD) (p : Fin 128) (q : Fin 10) :
    (Gen.dat6 (F := Ideal) V c).arrAt 5 cfg6.N (ix2 p q)
      = (FloatOps.addf (∑ j : Fin 256, HMul.hMul (α := EReal) (β := EReal) (FloatOps.maximumf (FloatOps.addf (∑ k : Fin 256, HMul.hMul (α := EReal) (β := EReal) (V c main_v116 (ix2 p k)) (V c main_arg7 (ix2 k j))) (V c main_v117 (ix2 (0 : Fin 1) j))) (Scalar.ofBits (F := Ideal) .f32 0x00000000#32)) (V c main_arg9 (ix2 j q))) (V c main_v118 (ix2 (0 : Fin 1) q)) : Ideal .f32) :=
  congrFun (mlp6_arr V c) (ix2 p q)

end Cert.KernelIdeal.RegionValue

end
-- ==== Proof.Head.lean ====
/-
  The head of the idealized kernel against the reference's: one region computes, for the pooled features P,
  max(P*W1 + b1, 0)*W2 + b2.  Entry (p, q) is the sum over j of max((sum over k of P(p,k)*W1(k,j)) + b1[j], 0) * W2(j,q),
  plus b2[q]; the reference computes the same two contractions, adds the same biases (repeated down the rows), and
  rectifies in between.
-/
import proofs.«121664_j30580167148117_1_alg».proof.Proof.Gen.KernelIdeal.Frame
import proofs.«121664_j30580167148117_1_alg».proof.Proof.Gen.ReferenceIdeal.Read
import proofs.«121664_j30580167148117_1_alg».proof.Proof.Carry
import proofs.«121664_j30580167148117_1_alg».proof.Proof.Fold1
import proofs.«121664_j30580167148117_1_alg».proof.Proof.Host4
import proofs.«121664_j30580167148117_1_alg».proof.Proof.Layer3
import proofs.«121664_j30580167148117_1_alg».proof.Proof.Mlp6
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Carry
open Cert.ReferenceIdeal.Read

variable (m : (ℓ : Loc nD τ sig) → Buf (Elt Ideal) ℓ) (ρ : Dev nD → PrngReg) (c : Dev nD)

/-- The head region's output array is the reference's last linear layer. -/
theorem last : W12 m ρ c (Proc.devRef .tc main_v119) = val_main_v136 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W12_arr m ρ c 5).trans ?_
  funext i
  obtain ⟨p, q, rfl⟩ : ∃ (p : Fin 128) (q : Fin 10), i = ix2 p q := ⟨i 0, i 1, eq_ix2 i⟩
  refine (Cert.KernelIdeal.RegionValue.mlp6_at (V11 m ρ) c p q).trans ?_
  show (FloatOps.addf (∑ j : Fin 256, HMul.hMul (α := EReal) (β := EReal) (FloatOps.maximumf (FloatOps.addf
        (∑ k : Fin 256, HMul.hMul (α := EReal) (β := EReal) (W11 m ρ c (Proc.devRef .tc main_v116) (ix2 p k)) (W11 m ρ c (Proc.devRef .tc main_arg7) (ix2 k j)))
        (W11 m ρ c (Proc.devRef .tc main_v117) (ix2 (0 : Fin 1) j))) (Scalar.ofBits (F := Ideal) .f32 0x00000000#32))
      (W11 m ρ c (Proc.devRef .tc main_arg9) (ix2 j q))) (W11 m ρ c (Proc.devRef .tc main_v118) (ix2 (0 : Fin 1) q)) : Ideal .f32) = _
  have e1 : ∀ (j k : Fin 256), lidx_main_v128 (lidx_main_v133 (ix2 p q) j) k = ix2 p k :=
    fun j k => funext fun a => Fin.ext (by match a with | ⟨0, _⟩ => rfl | ⟨1, _⟩ => rfl)
  have e2 : ∀ (j k : Fin 256), ridx_main_v128 (lidx_main_v133 (ix2 p q) j) k = ix2 k j :=
    fun j k => funext fun a => Fin.ext (by match a with | ⟨0, _⟩ => rfl | ⟨1, _⟩ => rfl)
  have e3 : ∀ j : Fin 256, idx_main_v129 (idx_main_v130 (lidx_main_v133 (ix2 p q) j)) = ix1 j :=
    fun j => funext fun a => Fin.ext (by match a with | ⟨0, _⟩ => rfl)
  have e4 : ∀ j : Fin 256, ridx_main_v133 (ix2 p q) j = ix2 j q :=
    fun j => funext fun a => Fin.ext (by match a with | ⟨0, _⟩ => rfl | ⟨1, _⟩ => rfl)
  have e5 : idx_main_v134 (idx_main_v135 (ix2 p q)) = ix1 q := funext fun a => Fin.ext (by match a with | ⟨0, _⟩ => rfl)
  simp only [pooled m ρ c (out3 m ρ c), bias1_at m ρ c, bias2_at m ρ c, W11_arg7 m ρ c, W11_arg9 m ρ c,
    val_main_v136_apply, val_main_v135_apply, val_main_v134_apply, val_main_v133_apply, val_main_v132_apply, val_main_v131_apply,
    val_main_v130_apply, val_main_v129_apply, val_main_v128_apply, val_main_call3_v0_apply, val_main_call3_cst_apply, e1, e2, e3, e4, e5]

end Cert.Bridge

end
-- ==== Proof.Tail.lean ====
/-
  The last two stretches of host operations of the idealized kernel, read against the reference's last stages: the
  row-wise log-softmax of the head's output (subtract the row maximum, exponentiate, sum, take the logarithm, subtract)
  and its entrywise logistic function 1 / (1 + exp(-x)).  They are the reference's operations on the reference's operand.
-/
import proofs.«121664_j30580167148117_1_alg».proof.Proof.Gen.KernelIdeal.Frame
import proofs.«121664_j30580167148117_1_alg».proof.Proof.Gen.ReferenceIdeal.Read
import proofs.«121664_j30580167148117_1_alg».proof.Proof.Carry
import proofs.«121664_j30580167148117_1_alg».proof.Proof.Fold1
import proofs.«121664_j30580167148117_1_alg».proof.Proof.Head
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Carry
open Cert.ReferenceIdeal.Read

variable (m : (ℓ : Loc nD τ sig) → Buf (Elt Ideal) ℓ) (ρ : Dev nD → PrngReg) (c : Dev nD)

/-- The head's output is still in place at the return. -/
theorem res_last : W14 m ρ c (Proc.devRef .tc main_v119) = val_main_v136 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (pass_hostOps7_1 (W13 m ρ c) (by decide)).trans ((pass_hostOps7 (W12 m ρ c) (by decide)).trans (last m ρ c))

/-- The log-softmax of the head's output, row by row. -/
theorem res_logsoftmax : W14 m ρ c (Proc.devRef .tc main_v120) = val_main_v137 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (pass_hostOps7_1 (W13 m ρ c) (by decide)).trans ?_
  show StableHlo.after hostOps7 (W12 m ρ c) (Proc.devRef .tc main_v120) = _
  after_results_simp
  simp only [TRef.toBuf, TRef.ofBuf, cast_cast, cast_eq]
  rw [last m ρ c]
  rfl

/-- The logistic function of the head's output, entry by entry. -/
theorem res_sigmoid : W14 m ρ c (Proc.devRef .tc main_v126) = val_main_v143 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show StableHlo.after hostOps7_1 (W13 m ρ c) (Proc.devRef .tc main_v126) = _
  after_results_simp
  rw [last m ρ c]
  rfl

end Cert.Bridge

end
-- ==== Proof.lean ====
/-
  A three-layer graph convolution with mean pooling and a two-layer head, kernel against reference, on the extended reals.

  Both programs compute, from the edge list, d = (in-degree + 1)^(-1/2); then three times
      h  <-  max( A(h W) + (d*d) . (h W), 0 ),
  where A gathers the rows of h W at the edges' source nodes, scales row e by d[source e] * d[target e] and adds it
  into the row of its target node; then the mean of h over the nodes of each graph, the head
      max(P W1 + b1, 0) W2 + b2,
  and of that its row-wise log-softmax, its entrywise logistic function, and itself.

  The kernel does the three products h W, the three sums-and-rectifiers and the head in seven grid regions (row blocks
  of 5000, of 2000, and one whole block); the gathers, scatter-adds and the pooling are host operations in both
  programs, letter for letter the same.  So the proof is a walk through the kernel's fourteen segments: each host
  stretch is the reference's stretch on equal operands, each product region's array is the reference's contraction
  (entry (p, q) is the sum over k of h(p, k) W(k, q), whichever row block computed it), each add-and-rectify region's
  array is the reference's sum and rectifier entry by entry, and the head region's array is the reference's two
  contractions with the biases added.  No law of the extended reals beyond reading both sides at an index is used, so
  finiteness of the inputs is never opened.  The ideal pass rewrote nothing, so the idealization claim is trivial.
-/
import proofs.«121664_j30580167148117_1_alg».proof.Defs
import proofs.«121664_j30580167148117_1_alg».proof.Proof.Gen.Kernel
import proofs.«121664_j30580167148117_1_alg».proof.Proof.Gen.Kernel.Skeleton
import proofs.«121664_j30580167148117_1_alg».proof.Proof.Gen.Kernel.Launch
import proofs.«121664_j30580167148117_1_alg».proof.Proof.Gen.Kernel.Points
import proofs.«121664_j30580167148117_1_alg».proof.Proof.Gen.Kernel.Frame
import proofs.«121664_j30580167148117_1_alg».proof.Proof.Gen.KernelIdeal
import proofs.«121664_j30580167148117_1_alg».proof.Proof.Gen.KernelIdeal.Skeleton
import proofs.«121664_j30580167148117_1_alg».proof.Proof.Gen.KernelIdeal.Launch
import proofs.«121664_j30580167148117_1_alg».proof.Proof.Gen.KernelIdeal.Points
import proofs.«121664_j30580167148117_1_alg».proof.Proof.Gen.KernelIdeal.Frame
import proofs.«121664_j30580167148117_1_alg».proof.Proof.Gen.ReferenceIdeal
import proofs.«121664_j30580167148117_1_alg».proof.Proof.Gen.Pre_finite_inputs
import proofs.«121664_j30580167148117_1_alg».proof.Proof.Gen.ReferenceIdeal.Run
import proofs.«121664_j30580167148117_1_alg».proof.Proof.Gen.ReferenceIdeal.Read
import proofs.«121664_j30580167148117_1_alg».proof.Proof.RunValue
import proofs.«121664_j30580167148117_1_alg».proof.Proof.Tail
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel region: its frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

open Cert.KernelIdeal in
/-- Both runs end with the three results at the reference's last stages of the kernel's argument arrays: the kernel's by
    the walk through its segments, the reference's by its own run, the arguments agreeing. -/
theorem algebraic : Cert.algebraic_KernelIdeal_ReferenceIdeal := by
  intro m ρ m' ρ' _ hagree
  refine ⟨fun c => Cert.ReferenceIdeal.Read.val_main_v137 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)),
    fun c => Cert.ReferenceIdeal.Read.val_main_v143 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)),
    fun c => Cert.ReferenceIdeal.Read.val_main_v136 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)), ?_, ?_⟩
  · exact (θ_run Cert.KernelIdeal.defs _ _).mono (fun r h c =>
      ⟨(h c).1.trans (Cert.Bridge.res_logsoftmax m ρ c), (h c).2.1.trans (Cert.Bridge.res_sigmoid m ρ c),
        (h c).2.2.1.trans (Cert.Bridge.res_last m ρ c), (h c).2.2.2⟩)
      (Cert.KernelIdeal.RunValue.run (F := Ideal) m ρ)
  · refine (θ_run Cert.ReferenceIdeal.defs _ _).mono (fun r h c => ?_) (Cert.ReferenceIdeal.Value.run (F := Ideal) m' ρ')
    obtain ⟨h0, h1, h2, h3, h4, h5, h6, h7, h8, h9, h10⟩ := hagree c
    refine ⟨(h c).1.trans ?_, (h c).2.1.trans ?_, (h c).2.2.1.trans ?_, (h c).2.2.2⟩
    · rw [Cert.ReferenceIdeal.Read.val_main_v137_eq, h0, h1, h3, h4, h5, h6, h7, h8, h9, h10]
    · rw [Cert.ReferenceIdeal.Read.val_main_v143_eq, h0, h1, h3, h4, h5, h6, h7, h8, h9, h10]
    · rw [Cert.ReferenceIdeal.Read.val_main_v136_eq, h0, h1, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
